-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x800000 : Shape := ⟨2, ![2, 800000]⟩
abbrev S100x128 : Shape := ⟨2, ![100, 128]⟩
abbrev S128 : Shape := ⟨1, ![128]⟩
abbrev S128x128 : Shape := ⟨2, ![128, 128]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x100 .f32) (main_arg1 : IVec S2x800000 32) (main_arg2 : FVec F S100x128 .f32) (main_arg3 : FVec F S128 .f32) (main_arg4 : FVec F S100x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x128 .f32 := Host.absf main_arg2
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S100x128 .f32 := Host.absf main_arg4
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg5 main_arg6 main_arg7 main_arg8 main_arg9 main_arg10 main_arg11 main_v13 main_v16
-- ==== Kernel.lean ====
abbrev S50000x100 : Shape := ⟨2, ![50000, 100]⟩
abbrev S2x800000 : Shape := ⟨2, ![2, 800000]⟩
abbrev S100x128 : Shape := ⟨2, ![100, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x100 : Shape := ⟨2, ![800000, 100]⟩
abbrev S50000x1 : Shape := ⟨2, ![50000, 1]⟩
abbrev S1x128 : Shape := ⟨2, ![1, 128]⟩
abbrev S50000x128 : Shape := ⟨2, ![50000, 128]⟩
abbrev S5000x100 : Shape := ⟨2, ![5000, 100]⟩
abbrev S5000x128 : Shape := ⟨2, ![5000, 128]⟩
abbrev S800000x128 : Shape := ⟨2, ![800000, 128]⟩

abbrev nBuf : Space → Nat
  | .hbm => 130
  | .vmem => 34
  | .smem => 0
  | _ => 0

abbrev hbmTy0_0 (i : Nat) : BufTy := match i % 128 with
  | 0 => ⟨S50000x100, .f32⟩
  | 1 => ⟨S2x800000, .i32⟩
  | 2 => ⟨S100x128, .f32⟩
  | 3 => ⟨S128, .f32⟩
  | 4 => ⟨S100x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x100, .f32⟩
  | 37 => ⟨S_, .f32⟩
  | 38 => ⟨S50000x100, .f32⟩
  | 39 => ⟨S800000x1, .i32⟩
  | 40 => ⟨S50000x100, .f32⟩
  | 41 => ⟨S50000x1, .f32⟩
  | 42 => ⟨S50000x100, .f32⟩
  | 43 => ⟨S50000x100, .f32⟩
  | 44 => ⟨S1x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S1x128, .f32⟩
  | 76 => ⟨S1x128, .f32⟩
  | 77 => ⟨S1x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x1, .f32⟩
  | 93 => ⟨S50000x128, .f32⟩
  | 94 => ⟨S50000x128, .f32⟩
  | 95 => ⟨S1x128, .f32⟩
  | 96 => ⟨S50000x128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S1x128, .f32⟩
  | 127 => ⟨S1x128, .f32⟩
  | _ => ⟨S50000x100, .f32⟩

abbrev hbmTy0_1 (i : Nat) : BufTy := match i % 128 with
  | 0 => ⟨S1x128, .f32⟩
  | 1 => ⟨S50000x128, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S5000x100, .f32⟩
  | .local _ .vmem, ⟨3, _⟩ => ⟨S5000x100, .f32⟩
  | .local _ .vmem, ⟨4, _⟩ => ⟨S100x128, .f32⟩
  | .local _ .vmem, ⟨5, _⟩ => ⟨S1x128, .f32⟩
  | .local _ .vmem, ⟨6, _⟩ => ⟨S100x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_8 : Ref sig .tc := ⟨.hbm, 79, rfl⟩
abbrev main_v36 : Ref sig .tc := ⟨.hbm, 80, rfl⟩
abbrev main_v37 : Ref sig .tc := ⟨.hbm, 81, rfl⟩
abbrev main_c_9 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_10 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_11 : Ref sig .tc := ⟨.hbm, 97, rfl⟩
abbrev main_v51 : Ref sig .tc := ⟨.hbm, 98, rfl⟩
abbrev main_cst_12 : Ref sig .tc := ⟨.hbm, 99, rfl⟩
abbrev main_v52 : Ref sig .tc := ⟨.hbm, 100, rfl⟩
abbrev main_v53 : Ref sig .tc := ⟨.hbm, 101, rfl⟩
abbrev main_c_13 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_cst_1 : Ref sig .tc := ⟨.hbm, 113, rfl⟩
abbrev main_call1_v8 : Ref sig .tc := ⟨.hbm, 114, rfl⟩
abbrev main_call1_cst_2 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_cst_3 : Ref sig .tc := ⟨.hbm, 119, rfl⟩
abbrev main_call1_v12 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  shapeCasts_S128_S1x128 : S128.ShapeCasts S1x128
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S128x128_S128x128_0_0 : ∀ a, (![0, 0] : Fin 2 → Nat) a + S128x128.size a ≤ S128x128.size a
  h_S128x128 : 0 < S128x128.numel
  scatter_S50000_S800000x1_S800000_n_0_0_1_wf : ScatterDims.WF S50000 S800000x1 S800000 [] [0] [0] 1
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x128_S5000x128_1_0_0_1_n_n_wf : DotDims.WF S5000x100 S100x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x100.size a ≤ S50000x100.size a
  hwx0_1 : ∀ i : grid0.Coords, EltTy.bits .f32 = 32 ∨ (Rect.block (s := S50000x100) S5000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x128.size a ≤ S100x128.size a
  hwx0_2 : ∀ i : grid0.Coords, EltTy.bits .f32 = 32 ∨ (Rect.block (s := S100x128) S100x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x128.size a ≤ S100x128.size a
  hwx0_4 : ∀ i : grid0.Coords, EltTy.bits .f32 = 32 ∨ (Rect.block (s := S100x128) S100x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x100 : Shape := ⟨2, ![50000, 100]⟩
abbrev S2x800000 : Shape := ⟨2, ![2, 800000]⟩
abbrev S100x128 : Shape := ⟨2, ![100, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 173
  | .vmem => 0
  | .smem => 0
  | _ => 0

abbrev hbmTy0_0 (i : Nat) : BufTy := match i % 128 with
  | 0 => ⟨S50000x100, .f32⟩
  | 1 => ⟨S2x800000, .i32⟩
  | 2 => ⟨S100x128, .f32⟩
  | 3 => ⟨S128, .f32⟩
  | 4 => ⟨S100x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x100, .f32⟩
  | 25 => ⟨S_, .f32⟩
  | 26 => ⟨S50000x100, .f32⟩
  | 27 => ⟨S800000x1, .i32⟩
  | 28 => ⟨S50000x100, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x100, .f32⟩
  | 40 => ⟨S50000x100, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x800000, .i32⟩
  | 95 => ⟨S800000, .i32⟩
  | 96 => ⟨S1x800000, .i32⟩
  | 97 => ⟨S800000, .i32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x100, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call1_cst : Ref sig .tc := ⟨.hbm, 91, rfl⟩
abbrev main_call1_v0 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_8 : Ref sig .tc := ⟨.hbm, 98, rfl⟩
abbrev main_v53 : Ref sig .tc := ⟨.hbm, 99, rfl⟩
abbrev main_v54 : Ref sig .tc := ⟨.hbm, 100, rfl⟩
abbrev main_c_9 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_10 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_11 : Ref sig .tc := ⟨.hbm, 111, rfl⟩
abbrev main_v63 : Ref sig .tc := ⟨.hbm, 112, rfl⟩
abbrev main_cst_12 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_13 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_14 : Ref sig .tc := ⟨.hbm, 129, rfl⟩
abbrev main_v78 : Ref sig .tc := ⟨.hbm, 130, rfl⟩
abbrev main_cst_15 : Ref sig .tc := ⟨.hbm, 131, rfl⟩
abbrev main_v79 : Ref sig .tc := ⟨.hbm, 132, rfl⟩
abbrev main_v80 : Ref sig .tc := ⟨.hbm, 133, rfl⟩
abbrev main_c_16 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_v7 : Ref sig .tc := ⟨.hbm, 144, rfl⟩
abbrev main_call2_cst_1 : Ref sig .tc := ⟨.hbm, 145, rfl⟩
abbrev main_call2_v8 : Ref sig .tc := ⟨.hbm, 146, rfl⟩
abbrev main_call2_cst_2 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_cst_3 : Ref sig .tc := ⟨.hbm, 151, rfl⟩
abbrev main_call2_v12 : Ref sig .tc := ⟨.hbm, 152, rfl⟩
abbrev main_call2_cst_4 : Ref sig .tc := ⟨.hbm, 153, rfl⟩
abbrev main_call2_call0_v0 : Ref sig .tc := ⟨.hbm, 154, rfl⟩
abbrev main_call2_call0_v1 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_17 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S800000x1_S800000_n_0_0_1_wf : ScatterDims.WF S50000 S800000x1 S800000 [] [0] [0] 1
  dot_S50000x100_S100x128_S50000x128_1_0_0_1_n_n_wf : DotDims.WF S50000x100 S100x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x100_S100x128_S50000x128_1_0_0_1_n_n : DotDims S50000x100 S100x128 S50000x128 where
  lhsContracting := [1]
  rhsContracting := [0]
  lhsNonContracting := [0]
  rhsNonContracting := [1]
  lhsBatch := []
  rhsBatch := []
  wf := dot_S50000x100_S100x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two-layer neighbourhood-mean network written once, as functions of whole arrays over the extended reals.

  A graph has 50000 nodes and 800000 edges, edge k running from node src k to node dst k (row 0 and row 1 of the
  edge table; a negative source counts from the end).  For a feature matrix x the neighbourhood SUM at node i is the sum
  of the rows x (src k) over the edges with dst k = i, and cnt i = max (number of such edges) 1.  The mean is written in
  two ways: the sum TIMES the reciprocal 1 / cnt i (meanMul), or the sum DIVIDED by cnt i (meanDiv).  One layer sends the
  mean through a matrix wl and the node's own row through wr, adds a bias, and then normalises every column by that
  column's mean and variance over all nodes, scaled by gamma and shifted by beta; the first layer ends in max (., 0).
  The column statistics (colMean, colVar) are the same operations in both ways of writing the network.
-/
import Idealize.ShloMosaic.PureOps.Ideal
import Idealize.ShloMosaic.PureOps.Ideal.Laws
import Idealize.ShloMosaic.Lib.ValueIdx

noncomputable section

namespace Cert.Spec

open Idealize.ShloMosaic

abbrev S_ : Shape := ⟨0, ![]⟩
abbrev S128 : Shape := ⟨1, ![128]⟩
abbrev S1x128 : Shape := ⟨2, ![1, 128]⟩
abbrev S50000 : Shape := ⟨1, ![50000]⟩
abbrev S50000x1 : Shape := ⟨2, ![50000, 1]⟩
abbrev S50000x100 : Shape := ⟨2, ![50000, 100]⟩
abbrev S50000x128 : Shape := ⟨2, ![50000, 128]⟩
abbrev S100x128 : Shape := ⟨2, ![100, 128]⟩
abbrev S128x128 : Shape := ⟨2, ![128, 128]⟩
abbrev S2x800000 : Shape := ⟨2, ![2, 800000]⟩
abbrev S1x800000 : Shape := ⟨2, ![1, 800000]⟩
abbrev S800000 : Shape := ⟨1, ![800000]⟩
abbrev S800000x1 : Shape := ⟨2, ![800000, 1]⟩
abbrev S800000x100 : Shape := ⟨2, ![800000, 100]⟩
abbrev S800000x128 : Shape := ⟨2, ![800000, 128]⟩

/-- Arrays of extended reals and of 32-bit integers. -/
abbrev FArr (s : Shape) : Type := FVec Ideal s .f32
abbrev IArr (s : Shape) : Type := IVec s 32

theorem slices0 : S2x800000.Slices ![0, 0] S1x800000 := by decide
theorem slices1 : S2x800000.Slices ![1, 0] S1x800000 := by decide
theorem casts_edge : S1x800000.ShapeCasts S800000 := by decide
theorem bc_S800000 : S_.BroadcastsInDim S800000 (![] : Fin 0 → Fin S800000.rank) := by decide
theorem bc_col : S800000.BroadcastsInDim S800000x1 (![0] : Fin 1 → Fin S800000x1.rank) := by decide
theorem bc_S50000x100 : S_.BroadcastsInDim S50000x100 (![] : Fin 0 → Fin S50000x100.rank) := by decide
theorem bc_S50000x128 : S_.BroadcastsInDim S50000x128 (![] : Fin 0 → Fin S50000x128.rank) := by decide
theorem bc_S50000 : S_.BroadcastsInDim S50000 (![] : Fin 0 → Fin S50000.rank) := by decide
theorem bc_S128 : S_.BroadcastsInDim S128 (![] : Fin 0 → Fin S128.rank) := by decide
theorem bc_S1x128 : S_.BroadcastsInDim S1x128 (![] : Fin 0 → Fin S1x128.rank) := by decide
theorem bc_nodeCol : S50000.BroadcastsInDim S50000x1 (![0] : Fin 1 → Fin S50000x1.rank) := by decide
theorem bc_node100 : S50000x1.BroadcastsInDim S50000x100 (![0, 1] : Fin 2 → Fin S50000x100.rank) := by decide
theorem bc_node128 : S50000x1.BroadcastsInDim S50000x128 (![0, 1] : Fin 2 → Fin S50000x128.rank) := by decide
theorem bc_row : S128.BroadcastsInDim S1x128 (![1] : Fin 1 → Fin S1x128.rank) := by decide
theorem bc_rows : S1x128.BroadcastsInDim S50000x128 (![0, 1] : Fin 2 → Fin S50000x128.rank) := by decide
theorem red0 : S50000x128.ReducesTo [0] S128 := by decide
theorem pos_S_ : 0 < S_.numel := by decide
theorem casts_row : S128.ShapeCasts S1x128 := by decide

def gather100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := by decide
def gather128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := by decide
def scatter100 : ScatterDims S50000x100 S800000x1 S800000x100 where
  updateWindowDims := [1]
  insertedWindowDims := [0]
  scatterDimsToOperandDims := [0]
  indexVectorDim := 1
  wf := by decide
def scatter128 : ScatterDims S50000x128 S800000x1 S800000x128 where
  updateWindowDims := [1]
  insertedWindowDims := [0]
  scatterDimsToOperandDims := [0]
  indexVectorDim := 1
  wf := by decide
def scatterCnt : ScatterDims S50000 S800000x1 S800000 where
  updateWindowDims := []
  insertedWindowDims := [0]
  scatterDimsToOperandDims := [0]
  indexVectorDim := 1
  wf := by decide
def dot100 : DotDims S50000x100 S100x128 S50000x128 where
  lhsContracting := [1]
  rhsContracting := [0]
  lhsNonContracting := [0]
  rhsNonContracting := [1]
  lhsBatch := []
  rhsBatch := []
  wf := by decide
def dot128 : DotDims S50000x128 S128x128 S50000x128 where
  lhsContracting := [1]
  rhsContracting := [0]
  lhsNonContracting := [0]
  rhsNonContracting := [1]
  lhsBatch := []
  rhsBatch := []
  wf := by decide

/-! ## The edge table -/

/-- Row r of the edge table as a list of 800000 node numbers. -/
def srcRow (e : IArr S2x800000) : IArr S800000 :=
  fun i => shapeCast S800000 (extractStridedSlice S1x800000 ![0, 0] e slices0) casts_edge i
def dstRow (e : IArr S2x800000) : IArr S800000 :=
  fun i => shapeCast S800000 (extractStridedSlice S1x800000 ![1, 0] e slices1) casts_edge i

/-- The source nodes as a column of start indices, a negative number counted from the end. -/
def srcCol (e : IArr S2x800000) : IArr S800000x1 :=
  broadcastInDim S800000x1 ![0] bc_col
    (select (cmpi CmpIPredicate.slt (srcRow e) (broadcastInDim S800000 ![] bc_S800000 (constantI S_ 32 0#32)))
      (addi (srcRow e) (broadcastInDim S800000 ![] bc_S800000 (constantI S_ 32 50000#32))) (srcRow e))
/-- The destination nodes as a column of scatter indices. -/
def dstCol (e : IArr S2x800000) : IArr S800000x1 := broadcastInDim S800000x1 ![0] bc_col (dstRow e)

/-- cnt i = max (number of edges into node i) 1. -/
def cnt (e : IArr S2x800000) : FArr S50000 :=
  maximumf
    (Host.scatterAdd scatterCnt (broadcastInDim S50000 ![] bc_S50000 (constant (F := Ideal) S_ FTy.f32 0#32)) (dstCol e)
      (broadcastInDim S800000 ![] bc_S800000 (constant (F := Ideal) S_ FTy.f32 1065353216#32)))
    (broadcastInDim S50000 ![] bc_S50000 (constant (F := Ideal) S_ FTy.f32 1065353216#32))

/-- The neighbourhood sums of a 100-column and of a 128-column feature matrix. -/
def nbrSum100 (x : FArr S50000x100) (e : IArr S2x800000) : FArr S50000x100 :=
  Host.scatterAdd scatter100 (broadcastInDim S50000x100 ![] bc_S50000x100 (constant (F := Ideal) S_ FTy.f32 0#32)) (dstCol e)
    (Host.gather gather100 x (srcCol e))
def nbrSum128 (x : FArr S50000x128) (e : IArr S2x800000) : FArr S50000x128 :=
  Host.scatterAdd scatter128 (broadcastInDim S50000x128 ![] bc_S50000x128 (constant (F := Ideal) S_ FTy.f32 0#32)) (dstCol e)
    (Host.gather gather128 x (srcCol e))

/-- The reciprocal 1 / cnt. -/
def invCnt (e : IArr S2x800000) : FArr S50000 :=
  Host.divf (broadcastInDim S50000 ![] bc_S50000 (constant (F := Ideal) S_ FTy.f32 1065353216#32)) (cnt e)

/-- The neighbourhood mean as sum times reciprocal. -/
def meanMul100 (x : FArr S50000x100) (e : IArr S2x800000) : FArr S50000x100 :=
  mulf (nbrSum100 x e) (broadcastInDim S50000x100 ![0, 1] bc_node100 (broadcastInDim S50000x1 ![0] bc_nodeCol (invCnt e)))
def meanMul128 (x : FArr S50000x128) (e : IArr S2x800000) : FArr S50000x128 :=
  mulf (nbrSum128 x e) (broadcastInDim S50000x128 ![0, 1] bc_node128 (broadcastInDim S50000x1 ![0] bc_nodeCol (invCnt e)))
/-- The neighbourhood mean as sum divided by count. -/
def meanDiv100 (x : FArr S50000x100) (e : IArr S2x800000) : FArr S50000x100 :=
  Host.divf (nbrSum100 x e) (broadcastInDim S50000x100 ![0, 1] bc_node100 (broadcastInDim S50000x1 ![0] bc_nodeCol (cnt e)))
def meanDiv128 (x : FArr S50000x128) (e : IArr S2x800000) : FArr S50000x128 :=
  Host.divf (nbrSum128 x e) (broadcastInDim S50000x128 ![0, 1] bc_node128 (broadcastInDim S50000x1 ![0] bc_nodeCol (cnt e)))

/-! ## Column statistics over the 50000 nodes -/

/-- The column sums. -/
def colSum (h : FArr S50000x128) : FArr S128 := Host.reduceAdd h (constant (F := Ideal) S_ FTy.f32 0#32) red0 pos_S_

/-- The column means: column sum / 50000. -/
def colMean (h : FArr S50000x128) : FArr S128 :=
  Host.divf (colSum h) (broadcastInDim S128 ![] bc_S128 (constant (F := Ideal) S_ FTy.f32 1195593728#32))

/-- The number the squared deviations' sum is divided by: 50000 minus the (zero) correction. -/
def varDen : FArr S_ :=
  subf (constant (F := Ideal) S_ FTy.f32 1195593728#32) (sitofp FTy.f32 (constantI S_ 32 0#32))

/-- The deviations from the column mean. -/
def centered (h : FArr S50000x128) : FArr S50000x128 :=
  subf h (broadcastInDim S50000x128 ![0, 1] bc_rows
    (Host.divf (broadcastInDim S1x128 ![1] bc_row (colSum h))
      (broadcastInDim S1x128 ![] bc_S1x128 (constant (F := Ideal) S_ FTy.f32 1195593728#32))))

/-- The column variances: the mean of the squared deviations, guarded by the test that the divisor is positive. -/
def colVar (h : FArr S50000x128) : FArr S128 :=
  select (broadcastInDim S128 ![] bc_S128 (cmpf CmpFPredicate.ogt varDen (constant (F := Ideal) S_ FTy.f32 0#32)))
    (Host.divf (colSum (mulf (centered h) (centered h))) (broadcastInDim S128 ![] bc_S128 varDen))
    (broadcastInDim S128 ![] bc_S128 (id (constant (F := Ideal) S_ FTy.f32 2143289344#32)))

/-! ## The layers, written with whole-array host operations -/

/-- A length-128 row as a [1, 128] matrix. -/
def rowOf (v : FArr S128) : FArr S1x128 := fun i => shapeCast S1x128 v casts_row i

/-- A length-128 row laid under each of the 50000 rows. -/
def rowsB (v : FArr S128) : FArr S50000x128 :=
  broadcastInDim S50000x128 ![0, 1] bc_rows (broadcastInDim S1x128 ![1] bc_row v)

/-- The linear part: a . wl + b + x . wr. -/
def linHost100 (a x : FArr S50000x100) (wl : FArr S100x128) (b : FArr S128) (wr : FArr S100x128) : FArr S50000x128 :=
  addf (addf (Host.dotGeneral dot100 none a wl) (rowsB b)) (Host.dotGeneral dot100 none x wr)
def linHost128 (a x : FArr S50000x128) (wl : FArr S128x128) (b : FArr S128) (wr : FArr S128x128) : FArr S50000x128 :=
  addf (addf (Host.dotGeneral dot128 none a wl) (rowsB b)) (Host.dotGeneral dot128 none x wr)

/-- The normalisation: g * (h - mean) / sqrt (var + eps) + bt, column by column. -/
def normHost (h : FArr S50000x128) (g bt : FArr S128) : FArr S50000x128 :=
  addf
    (Host.divf (mulf (rowsB g) (subf h (rowsB (colMean h))))
      (rowsB (Host.sqrt (addf (colVar h) (broadcastInDim S128 ![] bc_S128 (constant (F := Ideal) S_ FTy.f32 925353388#32))))))
    (rowsB bt)

/-- max (., 0). -/
def reluHost (h : FArr S50000x128) : FArr S50000x128 :=
  maximumf h (broadcastInDim S50000x128 ![] bc_S50000x128 (constant (F := Ideal) S_ FTy.f32 0#32))

end Cert.Spec

end
-- ==== Proof.Rows.lean ====
/-
  One layer of the network on rows, read at an entry.

  For a block (or the whole matrix) of n rows: the linear part at (p, q) is (a.wl)(p,q) + (x.wr)(p,q) + b(0,q), the bias
  held as a [1, e] row; the normalisation at (p, q) is (g(0,q) * (h(p,q) - mean(0,q))) * (var(0,q) + eps)^(-1/2) + bt(0,q),
  the four column statistics held as [1, e] rows.  Entry (p, q) depends on row p of the row-indexed operands only, which is
  why a block of rows and the whole matrix are read by the same formula.
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx
open scoped BigOperators

variable {n d e : ℕ}

/-- Entry (p, q) of the product h . w. -/
def prodAt (h : (⟨2, ![n, d]⟩ : Shape).Idx → EReal) (w : (⟨2, ![d, e]⟩ : Shape).Idx → EReal) (p : Fin n) (q : Fin e) : EReal :=
  ∑ k : Fin d, h (ix2 p k) * w (ix2 k q)

theorem prodAt_congr {n' : ℕ} (h : (⟨2, ![n, d]⟩ : Shape).Idx → EReal) (h' : (⟨2, ![n', d]⟩ : Shape).Idx → EReal)
    (w : (⟨2, ![d, e]⟩ : Shape).Idx → EReal) (p : Fin n) (p' : Fin n') (q : Fin e)
    (hh : ∀ k : Fin d, h (ix2 p k) = h' (ix2 p' k)) : prodAt h w p q = prodAt h' w p' q :=
  Finset.sum_congr rfl fun k _ => by rw [hh k]

/-- The linear part of a layer on n rows. -/
def lin (a x : (⟨2, ![n, d]⟩ : Shape).Idx → EReal) (wl wr : (⟨2, ![d, e]⟩ : Shape).Idx → EReal)
    (b : (⟨2, ![1, e]⟩ : Shape).Idx → EReal) : (⟨2, ![n, e]⟩ : Shape).Idx → EReal :=
  fun i => (prodAt a wl (i 0) (i 1) + prodAt x wr (i 0) (i 1)) + b (ix2 (0 : Fin 1) (i 1))

/-- The linear part at row i 0 of one matrix pair is the linear part at row i' 0 of another whose rows agree there. -/
theorem lin_congr {n' : ℕ} (a x : (⟨2, ![n, d]⟩ : Shape).Idx → EReal) (a' x' : (⟨2, ![n', d]⟩ : Shape).Idx → EReal)
    (wl wr : (⟨2, ![d, e]⟩ : Shape).Idx → EReal) (b : (⟨2, ![1, e]⟩ : Shape).Idx → EReal)
    (i : (⟨2, ![n, e]⟩ : Shape).Idx) (i' : (⟨2, ![n', e]⟩ : Shape).Idx) (h1 : i 1 = i' 1)
    (ha : ∀ k : Fin d, a (ix2 (i 0) k) = a' (ix2 (i' 0) k)) (hx : ∀ k : Fin d, x (ix2 (i 0) k) = x' (ix2 (i' 0) k)) :
    lin a x wl wr b i = lin a' x' wl wr b i' := by
  unfold lin
  rw [← h1, prodAt_congr a a' wl (i 0) (i' 0) (i 1) ha, prodAt_congr x x' wr (i 0) (i' 0) (i 1) hx]

/-- The small positive constant added to the variance. -/
def eps : EReal := Ideal.ofBits .f32 0x3727C5AC#32

/-- The normalisation of a layer on n rows. -/
def norm (h : (⟨2, ![n, e]⟩ : Shape).Idx → EReal) (mean var g bt : (⟨2, ![1, e]⟩ : Shape).Idx → EReal) :
    (⟨2, ![n, e]⟩ : Shape).Idx → EReal :=
  fun i => (g (ix2 (0 : Fin 1) (i 1)) * (h i - mean (ix2 (0 : Fin 1) (i 1)))) * Ideal.rsqrt (var (ix2 (0 : Fin 1) (i 1)) + eps)
    + bt (ix2 (0 : Fin 1) (i 1))

/-- The normalisation followed by max (., 0). -/
def normRelu (h : (⟨2, ![n, e]⟩ : Shape).Idx → EReal) (mean var g bt : (⟨2, ![1, e]⟩ : Shape).Idx → EReal) :
    (⟨2, ![n, e]⟩ : Shape).Idx → EReal :=
  fun i => max (norm h mean var g bt i) (Ideal.ofBits .f32 0x00000000#32)

/-- The normalisation at an entry depends on the data only through that entry and its column. -/
theorem norm_congr {n' : ℕ} (h : (⟨2, ![n, e]⟩ : Shape).Idx → EReal) (h' : (⟨2, ![n', e]⟩ : Shape).Idx → EReal)
    (mean var g bt : (⟨2, ![1, e]⟩ : Shape).Idx → EReal) (i : (⟨2, ![n, e]⟩ : Shape).Idx) (i' : (⟨2, ![n', e]⟩ : Shape).Idx)
    (h1 : i 1 = i' 1) (hh : h i = h' i') : norm h mean var g bt i = norm h' mean var g bt i' := by
  unfold norm
  rw [← h1, hh]

theorem normRelu_congr {n' : ℕ} (h : (⟨2, ![n, e]⟩ : Shape).Idx → EReal) (h' : (⟨2, ![n', e]⟩ : Shape).Idx → EReal)
    (mean var g bt : (⟨2, ![1, e]⟩ : Shape).Idx → EReal) (i : (⟨2, ![n, e]⟩ : Shape).Idx) (i' : (⟨2, ![n', e]⟩ : Shape).Idx)
    (h1 : i 1 = i' 1) (hh : h i = h' i') : normRelu h mean var g bt i = normRelu h' mean var g bt i' := by
  unfold normRelu
  rw [norm_congr h h' mean var g bt i i' h1 hh]

end Cert.Rows

end
-- ==== Proof.NetDefs.lean ====
/-
  The network in its two writings, and the layout operations read at an entry.

  netK is the network as the four row-block computations leave it: neighbourhood mean as sum TIMES reciprocal count,
  linear part (a.wl + x.wr) + b, normalisation with the reciprocal square root.  netR is the network in whole-array
  host operations: mean as sum DIVIDED by count, linear part (a.wl + b) + x.wr, normalisation dividing by the square root.
  A length-128 row cast to [1, 128] reads its entry q at (0, q); laid under every row it reads its entry q at (p, q); a
  length-50000 column laid beside every column reads its entry p at (p, q).
-/
import proofs.«155655_j678604832875_1_alg».proof.Proof.Spec
import proofs.«155655_j678604832875_1_alg».proof.Proof.Rows
import Idealize.ShloMosaic.Lib.Pipeline.Value
import Idealize.ShloMosaic.Lib.ValueLayout

noncomputable section

namespace Cert.Net

open Idealize.ShloMosaic Idealize.ShloMosaic.ValueIdx Cert.Spec
open scoped BigOperators

/-! ## The two writings -/

def linK100 (x : FArr S50000x100) (e : IArr S2x800000) (wl : FArr S100x128) (b : FArr S128) (wr : FArr S100x128) : FArr S50000x128 :=
  Rows.lin (n := 50000) (d := 100) (e := 128) (meanMul100 x e) x wl wr (rowOf b)
def linK128 (x : FArr S50000x128) (e : IArr S2x800000) (wl : FArr S128x128) (b : FArr S128) (wr : FArr S128x128) : FArr S50000x128 :=
  Rows.lin (n := 50000) (d := 128) (e := 128) (meanMul128 x e) x wl wr (rowOf b)
def normK (h : FArr S50000x128) (g bt : FArr S128) : FArr S50000x128 :=
  Rows.norm (n := 50000) (e := 128) h (rowOf (colMean h)) (rowOf (colVar h)) (rowOf g) (rowOf bt)
def normReluK (h : FArr S50000x128) (g bt : FArr S128) : FArr S50000x128 :=
  Rows.normRelu (n := 50000) (e := 128) h (rowOf (colMean h)) (rowOf (colVar h)) (rowOf g) (rowOf bt)

def netK (x : FArr S50000x100) (e : IArr S2x800000) (wl0 : FArr S100x128) (b0 : FArr S128) (wr0 : FArr S100x128) (g0 bt0 : FArr S128)
    (wl1 : FArr S128x128) (b1 : FArr S128) (wr1 : FArr S128x128) (g1 bt1 : FArr S128) : FArr S50000x128 :=
  normK (linK128 (normReluK (linK100 x e wl0 b0 wr0) g0 bt0) e wl1 b1 wr1) g1 bt1

def netR (x : FArr S50000x100) (e : IArr S2x800000) (wl0 : FArr S100x128) (b0 : FArr S128) (wr0 : FArr S100x128) (g0 bt0 : FArr S128)
    (wl1 : FArr S128x128) (b1 : FArr S128) (wr1 : FArr S128x128) (g1 bt1 : FArr S128) : FArr S50000x128 :=
  normHost (linHost128 (meanDiv128 (reluHost (normHost (linHost100 (meanDiv100 x e) x wl0 b0 wr0) g0 bt0)) e)
    (reluHost (normHost (linHost100 (meanDiv100 x e) x wl0 b0 wr0) g0 bt0)) wl1 b1 wr1) g1 bt1

/-! ## Layout operations at an entry -/

theorem rowOf_apply (v : FArr S128) (q : Fin 128) : rowOf v (ix2 (0 : Fin 1) q) = v (ix1 q) :=
  shapeCast_a_1a_apply v casts_row 0 q

theorem rowsB_apply (v : FArr S128) (p : Fin 50000) (q : Fin 128) : rowsB v (ix2 p q) = v (ix1 q) := by
  unfold rowsB
  refine (broadcastInDim_apply _ bc_rows _ (ix2 p q) (ix2 (0 : Fin 1) q) fun a => ?_).trans
    (broadcastInDim_apply _ bc_row v (ix2 (0 : Fin 1) q) (ix1 q) fun a => ?_)
  · match a with
    | ⟨0, _⟩ => rfl
    | ⟨1, _⟩ => rfl
  · match a with
    | ⟨0, _⟩ => rfl

theorem node100_apply (v : FArr S50000) (p : Fin 50000) (q : Fin 100) :
    broadcastInDim S50000x100 ![0, 1] bc_node100 (broadcastInDim S50000x1 ![0] bc_nodeCol v) (ix2 p q) = v (ix1 p) := by
  refine (broadcastInDim_apply _ bc_node100 _ (ix2 p q) (ix2 p (0 : Fin 1)) fun a => ?_).trans
    (broadcastInDim_apply _ bc_nodeCol v (ix2 p (0 : Fin 1)) (ix1 p) fun a => ?_)
  · match a with
    | ⟨0, _⟩ => rfl
    | ⟨1, _⟩ => rfl
  · match a with
    | ⟨0, _⟩ => rfl

theorem node128_apply (v : FArr S50000) (p : Fin 50000) (q : Fin 128) :
    broadcastInDim S50000x128 ![0, 1] bc_node128 (broadcastInDim S50000x1 ![0] bc_nodeCol v) (ix2 p q) = v (ix1 p) := by
  refine (broadcastInDim_apply _ bc_node128 _ (ix2 p q) (ix2 p (0 : Fin 1)) fun a => ?_).trans
    (broadcastInDim_apply _ bc_nodeCol v (ix2 p (0 : Fin 1)) (ix1 p) fun a => ?_)
  · match a with
    | ⟨0, _⟩ => rfl
    | ⟨1, _⟩ => rfl
  · match a with
    | ⟨0, _⟩ => rfl

end Cert.Net

end
-- ==== Proof.Laws.lean ====
/-
  Laws of the extended reals that join the two ways of writing the network.

  (1) For a count c with 1 <= c (a real, or +inf), a * (1 / c) = a / c for EVERY extended real a: at c = +inf both sides
      are 0, at a real c the quotient is the product with the reciprocal.
  (2) For w > 0 (a real, or +inf), z * w^(-1/2) = z / sqrt w for every extended real z: at w = +inf both sides are 0.
  (3) A square is >= 0 on the extended reals (the infinities square to +inf), so a sum of squares from 0 is >= 0, and so is
      its quotient by the positive real 50000.
  The float words 1.0, 50000.0 and 1e-5 (rounded) denote 1, 50000 and a positive real.
-/
import Idealize.ShloMosaic.PureOps.Ideal
import Idealize.ShloMosaic.PureOps.Ideal.Laws

noncomputable section

namespace Cert.Laws

open Idealize.ShloMosaic

theorem ofBits_one : Ideal.ofBits .f32 1065353216#32 = 1 := by
  simp [Ideal.ofBits, Ideal.ieee, -EReal.coe_mul]; norm_num

theorem ofBits_50000 : Ideal.ofBits .f32 1195593728#32 = ((50000 : ℝ) : EReal) := by
  simp [Ideal.ofBits, Ideal.ieee, -EReal.coe_mul]; norm_num

theorem eps_real : ∃ r : ℝ, 0 < r ∧ Ideal.ofBits .f32 0x3727C5AC#32 = (r : EReal) := by
  refine ⟨_, ?_, by simp [Ideal.ofBits, Ideal.ieee, -EReal.coe_mul]; rfl⟩
  positivity

theorem eps_pos : (0 : EReal) < Ideal.ofBits .f32 0x3727C5AC#32 := by
  obtain ⟨r, hr, e⟩ := eps_real
  rw [e]; exact_mod_cast hr

/-- a * (1 / c) = a / c once 1 <= c. -/
theorem mul_recip (a c : EReal) (hc : 1 ≤ c) : a * Ideal.div 1 c = Ideal.div a c := by
  induction c using EReal.rec with
  | bot => exact absurd hc (not_le.mpr (by exact_mod_cast EReal.bot_lt_coe 1))
  | top => simp [Ideal.div]
  | coe r =>
    have hr : r ≠ 0 := by
      have : (1 : ℝ) ≤ r := by exact_mod_cast hc
      intro h; rw [h] at this; norm_num at this
    rw [Ideal.div_coe hr, Ideal.div_coe hr, one_mul]

/-- z * w^(-1/2) = z / sqrt w once 0 < w. -/
theorem mul_rsqrt (z w : EReal) (hw : 0 < w) : z * Ideal.rsqrt w = Ideal.div z (Ideal.sqrt w) := by
  induction w using EReal.rec with
  | bot => exact absurd hw (by simp)
  | top =>
    show z * (0 : EReal) = Ideal.div z ⊤
    simp [Ideal.div]
  | coe r =>
    have hr : 0 < r := by exact_mod_cast hw
    have hs : Real.sqrt r ≠ 0 := (Real.sqrt_pos.mpr hr).ne'
    rw [Ideal.rsqrt_coe, if_neg (not_lt.mpr hr.le), if_neg hr.ne']
    show z * _ = Ideal.div z (if r < 0 then ⊥ else (Real.sqrt r : EReal))
    rw [if_neg (not_lt.mpr hr.le), Ideal.div_coe hs, one_div]

theorem sq_nonneg (x : EReal) : 0 ≤ x * x := by
  induction x using EReal.rec with
  | bot => simp
  | top => simp
  | coe r => exact_mod_cast mul_self_nonneg r

/-- A nonnegative extended real divided by 50000 is nonnegative. -/
theorem div_50000_nonneg (s : EReal) (hs : 0 ≤ s) : 0 ≤ Ideal.div s ((50000 : ℝ) : EReal) := by
  rw [Ideal.div_coe (by norm_num)]
  induction s using EReal.rec with
  | bot => exact absurd hs (by simp)
  | top => rw [EReal.top_mul_coe_of_pos (by norm_num)]; exact le_top
  | coe r =>
    have hr : 0 ≤ r := by exact_mod_cast hs
    rw [← EReal.coe_mul]
    exact_mod_cast mul_nonneg hr (by norm_num)

end Cert.Laws

end
-- ==== Proof.NetMean.lean ====
/-
  The neighbourhood mean: sum times reciprocal count is sum divided by count.

  The count at a node is max (.) 1, so it is >= 1 (a real, or +inf), and a * (1 / c) = a / c for every extended real a.
-/
import proofs.«155655_j678604832875_1_alg».proof.Proof.NetDefs
import proofs.«155655_j678604832875_1_alg».proof.Proof.Laws
import Idealize.ShloMosaic.Lib.Pipeline.Value
import Idealize.ShloMosaic.Lib.ValueLayout

noncomputable section

namespace Cert.Net

open Idealize.ShloMosaic Idealize.ShloMosaic.ValueIdx Cert.Spec
open scoped BigOperators

/-! ## The neighbourhood mean -/

theorem one_const (k : S50000.Idx) :
    broadcastInDim S50000 ![] bc_S50000 (constant (F := Ideal) S_ FTy.f32 1065353216#32) k = 1 := Laws.ofBits_one

theorem one_le_cnt (e : IArr S2x800000) (k : S50000.Idx) : 1 ≤ cnt e k := by
  unfold cnt
  rw [maximumf_apply, one_const]
  exact le_max_right _ _

/-- With any sum s and any count c >= 1: s times the reciprocal of c, laid beside every column, is s divided by c. -/
theorem mean_entry100 (s : FArr S50000x100) (c : FArr S50000) (hc : ∀ k, 1 ≤ c k) (p : Fin 50000) (q : Fin 100) :
    mulf s (broadcastInDim S50000x100 ![0, 1] bc_node100 (broadcastInDim S50000x1 ![0] bc_nodeCol
        (Host.divf (broadcastInDim S50000 ![] bc_S50000 (constant (F := Ideal) S_ FTy.f32 1065353216#32)) c))) (ix2 p q)
      = Host.divf s (broadcastInDim S50000x100 ![0, 1] bc_node100 (broadcastInDim S50000x1 ![0] bc_nodeCol c)) (ix2 p q) := by
  show s (ix2 p q) * (broadcastInDim S50000x100 ![0, 1] bc_node100 (broadcastInDim S50000x1 ![0] bc_nodeCol
        (Host.divf (broadcastInDim S50000 ![] bc_S50000 (constant (F := Ideal) S_ FTy.f32 1065353216#32)) c))) (ix2 p q)
      = Ideal.div (s (ix2 p q)) ((broadcastInDim S50000x100 ![0, 1] bc_node100 (broadcastInDim S50000x1 ![0] bc_nodeCol c)) (ix2 p q))
  rw [node100_apply, node100_apply]
  show s (ix2 p q) * Ideal.div (broadcastInDim S50000 ![] bc_S50000 (constant (F := Ideal) S_ FTy.f32 1065353216#32) (ix1 p)) (c (ix1 p)) = _
  rw [one_const]
  exact Laws.mul_recip _ _ (hc _)

theorem mean_entry128 (s : FArr S50000x128) (c : FArr S50000) (hc : ∀ k, 1 ≤ c k) (p : Fin 50000) (q : Fin 128) :
    mulf s (broadcastInDim S50000x128 ![0, 1] bc_node128 (broadcastInDim S50000x1 ![0] bc_nodeCol
        (Host.divf (broadcastInDim S50000 ![] bc_S50000 (constant (F := Ideal) S_ FTy.f32 1065353216#32)) c))) (ix2 p q)
      = Host.divf s (broadcastInDim S50000x128 ![0, 1] bc_node128 (broadcastInDim S50000x1 ![0] bc_nodeCol c)) (ix2 p q) := by
  show s (ix2 p q) * (broadcastInDim S50000x128 ![0, 1] bc_node128 (broadcastInDim S50000x1 ![0] bc_nodeCol
        (Host.divf (broadcastInDim S50000 ![] bc_S50000 (constant (F := Ideal) S_ FTy.f32 1065353216#32)) c))) (ix2 p q)
      = Ideal.div (s (ix2 p q)) ((broadcastInDim S50000x128 ![0, 1] bc_node128 (broadcastInDim S50000x1 ![0] bc_nodeCol c)) (ix2 p q))
  rw [node128_apply, node128_apply]
  show s (ix2 p q) * Ideal.div (broadcastInDim S50000 ![] bc_S50000 (constant (F := Ideal) S_ FTy.f32 1065353216#32) (ix1 p)) (c (ix1 p)) = _
  rw [one_const]
  exact Laws.mul_recip _ _ (hc _)

theorem mean100_eq (x : FArr S50000x100) (e : IArr S2x800000) : meanMul100 x e = meanDiv100 x e := by
  funext i
  obtain ⟨p, q, rfl⟩ : ∃ (p : Fin 50000) (q : Fin 100), i = ix2 p q := ⟨i 0, i 1, eq_ix2 i⟩
  unfold meanMul100 meanDiv100 invCnt
  exact mean_entry100 (nbrSum100 x e) (cnt e) (one_le_cnt e) p q

theorem mean128_eq (x : FArr S50000x128) (e : IArr S2x800000) : meanMul128 x e = meanDiv128 x e := by
  funext i
  obtain ⟨p, q, rfl⟩ : ∃ (p : Fin 50000) (q : Fin 128), i = ix2 p q := ⟨i 0, i 1, eq_ix2 i⟩
  unfold meanMul128 meanDiv128 invCnt
  exact mean_entry128 (nbrSum128 x e) (cnt e) (one_le_cnt e) p q

end Cert.Net

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.NetLin.lean ====
/-
  The linear part: (a.wl + x.wr) + b is (a.wl + b) + x.wr, entry by entry.

  Both products are the textbook sums over the contracted axis (the host's product like the matrix unit's), the bias row
  reads its entry q in both layouts, and addition of extended reals is commutative and associative.
-/
import proofs.«155655_j678604832875_1_alg».proof.Proof.NetDefs
import proofs.«155655_j678604832875_1_alg».proof.Proof.LibDot
import Idealize.ShloMosaic.Lib.Pipeline.Value
import Idealize.ShloMosaic.Lib.ValueLayout

noncomputable section

namespace Cert.Net

open Idealize.ShloMosaic Idealize.ShloMosaic.ValueIdx Cert.Spec
open scoped BigOperators

/-! ## The linear part -/

theorem lin100_entry (a x : FArr S50000x100) (wl : FArr S100x128) (b : FArr S128) (wr : FArr S100x128) (p : Fin 50000) (q : Fin 128) :
    Rows.lin (n := 50000) (d := 100) (e := 128) a x wl wr (rowOf b) (ix2 p q) = linHost100 a x wl b wr (ix2 p q) := by
  show (Rows.prodAt a wl p q + Rows.prodAt x wr p q) + rowOf b (ix2 (0 : Fin 1) q)
    = (FloatOps.dotGeneral dot100 none .single a wl (ix2 p q) + rowsB b (ix2 p q))
      + FloatOps.dotGeneral dot100 none .single x wr (ix2 p q)
  rw [LibDot.dotGeneral_apply dot100 rfl rfl (fun _ _ => rfl) (fun _ _ => rfl) (fun _ _ => rfl) (fun _ _ => rfl),
    LibDot.dotGeneral_apply dot100 rfl rfl (fun _ _ => rfl) (fun _ _ => rfl) (fun _ _ => rfl) (fun _ _ => rfl),
    rowsB_apply, rowOf_apply]
  exact add_right_comm _ _ _

theorem lin100_eq (a x : FArr S50000x100) (wl : FArr S100x128) (b : FArr S128) (wr : FArr S100x128) :
    Rows.lin (n := 50000) (d := 100) (e := 128) a x wl wr (rowOf b) = linHost100 a x wl b wr := by
  funext i
  obtain ⟨p, q, rfl⟩ : ∃ (p : Fin 50000) (q : Fin 128), i = ix2 p q := ⟨i 0, i 1, eq_ix2 i⟩
  exact lin100_entry a x wl b wr p q

theorem lin128_entry (a x : FArr S50000x128) (wl : FArr S128x128) (b : FArr S128) (wr : FArr S128x128) (p : Fin 50000) (q : Fin 128) :
    Rows.lin (n := 50000) (d := 128) (e := 128) a x wl wr (rowOf b) (ix2 p q) = linHost128 a x wl b wr (ix2 p q) := by
  show (Rows.prodAt a wl p q + Rows.prodAt x wr p q) + rowOf b (ix2 (0 : Fin 1) q)
    = (FloatOps.dotGeneral dot128 none .single a wl (ix2 p q) + rowsB b (ix2 p q))
      + FloatOps.dotGeneral dot128 none .single x wr (ix2 p q)
  rw [LibDot.dotGeneral_apply dot128 rfl rfl (fun _ _ => rfl) (fun _ _ => rfl) (fun _ _ => rfl) (fun _ _ => rfl),
    LibDot.dotGeneral_apply dot128 rfl rfl (fun _ _ => rfl) (fun _ _ => rfl) (fun _ _ => rfl) (fun _ _ => rfl),
    rowsB_apply, rowOf_apply]
  exact add_right_comm _ _ _

theorem lin128_eq (a x : FArr S50000x128) (wl : FArr S128x128) (b : FArr S128) (wr : FArr S128x128) :
    Rows.lin (n := 50000) (d := 128) (e := 128) a x wl wr (rowOf b) = linHost128 a x wl b wr := by
  funext i
  obtain ⟨p, q, rfl⟩ : ∃ (p : Fin 50000) (q : Fin 128), i = ix2 p q := ⟨i 0, i 1, eq_ix2 i⟩
  exact lin128_entry a x wl b wr p q

end Cert.Net

end
-- ==== Proof.NetVar.lean ====
/-
  The column variance is >= 0 on the extended reals, for every data.

  The divisor 50000 - 0 is the real 50000, so the guard "divisor > 0" holds and the variance is the column sum of the
  squared deviations divided by 50000; a square is >= 0 (an infinity squares to +inf), a sum of such from 0 is >= 0, and so
  is its quotient by a positive real.
-/
import proofs.«155655_j678604832875_1_alg».proof.Proof.NetDefs
import proofs.«155655_j678604832875_1_alg».proof.Proof.Laws
import Idealize.ShloMosaic.Lib.Pipeline.Value
import Idealize.ShloMosaic.Lib.ValueLayout

noncomputable section

namespace Cert.Net

open Idealize.ShloMosaic Idealize.ShloMosaic.ValueIdx Cert.Spec
open scoped BigOperators

/-! ## The column variance is >= 0 -/

theorem varDen_eq (k : S_.Idx) : varDen k = ((50000 : ℝ) : EReal) := by
  show Ideal.ofBits .f32 1195593728#32 - (((0#32 : BitVec 32).toInt : ℝ) : EReal) = _
  rw [Laws.ofBits_50000]
  simp

theorem red0' : S50000x128.Reduces [0] S128 := by decide

theorem colSum_nonneg (v : FArr S50000x128) (hv : ∀ i, 0 ≤ v i) (j : S128.Idx) : 0 ≤ colSum v j := by
  have e : colSum v j = Ideal.hostReduceAdd red0 v (Ideal.ofBits .f32 0#32) j := rfl
  rw [e, Ideal.hostReduceAdd_single red0 red0' v _ j, Ideal.ofBits_zero_f32, zero_add]
  exact Finset.sum_nonneg fun k _ => hv _

theorem colVar_eq (h : FArr S50000x128) (j : S128.Idx) :
    colVar h j = Ideal.div (colSum (mulf (centered h) (centered h)) j) ((50000 : ℝ) : EReal) := by
  show Scalar.select (Ideal.cmp .ogt (varDen _) (Ideal.ofBits .f32 0#32)) (Ideal.div (colSum (mulf (centered h) (centered h)) j) (varDen _)) _ = _
  rw [varDen_eq, Ideal.ofBits_zero_f32]
  have hc : Ideal.cmp .ogt ((50000 : ℝ) : EReal) 0 = 1#1 := by
    show BitVec.ofBool (decide ((0 : EReal) < ((50000 : ℝ) : EReal))) = 1#1
    rw [decide_eq_true (by exact_mod_cast (by norm_num : (0 : ℝ) < 50000))]
    rfl
  rw [hc]
  rfl

theorem colVar_nonneg (h : FArr S50000x128) (j : S128.Idx) : 0 ≤ colVar h j := by
  rw [colVar_eq]
  exact Laws.div_50000_nonneg _ (colSum_nonneg _ (fun i => Laws.sq_nonneg _) j)

end Cert.Net

end
-- ==== Proof.NetNorm.lean ====
/-
  The normalisation: multiplying by (variance + eps)^(-1/2) is dividing by sqrt (variance + eps), entry by entry.

  The four rows read their entry q in both layouts; the variance is >= 0 and eps > 0, so variance + eps > 0 (a real, or
  +inf), where z * w^(-1/2) = z / sqrt w for every extended real z.
-/
import proofs.«155655_j678604832875_1_alg».proof.Proof.NetDefs
import proofs.«155655_j678604832875_1_alg».proof.Proof.NetVar
import proofs.«155655_j678604832875_1_alg».proof.Proof.Laws
import Idealize.ShloMosaic.Lib.Pipeline.Value
import Idealize.ShloMosaic.Lib.ValueLayout

noncomputable section

namespace Cert.Net

open Idealize.ShloMosaic Idealize.ShloMosaic.ValueIdx Cert.Spec
open scoped BigOperators

/-! ## The normalisation -/

/-- A nonnegative plus a positive extended real is positive (also when the first is +inf). -/
theorem pos_of_nonneg_add_pos (a b : EReal) (ha : 0 ≤ a) (hb : 0 < b) : 0 < a + b :=
  lt_of_lt_of_le hb (le_add_of_nonneg_left ha)

theorem norm_entry (h : FArr S50000x128) (g bt : FArr S128) (p : Fin 50000) (q : Fin 128) :
    normK h g bt (ix2 p q) = normHost h g bt (ix2 p q) := by
  have hl : normK h g bt (ix2 p q) = (rowOf g (ix2 (0 : Fin 1) q) * (h (ix2 p q) - rowOf (colMean h) (ix2 (0 : Fin 1) q)))
        * Ideal.rsqrt (rowOf (colVar h) (ix2 (0 : Fin 1) q) + Rows.eps) + rowOf bt (ix2 (0 : Fin 1) q) := rfl
  have hr : normHost h g bt (ix2 p q) = Ideal.div (rowsB g (ix2 p q) * (h (ix2 p q) - rowsB (colMean h) (ix2 p q)))
        (rowsB (Host.sqrt (addf (colVar h) (broadcastInDim S128 ![] bc_S128 (constant (F := Ideal) S_ FTy.f32 925353388#32)))) (ix2 p q))
      + rowsB bt (ix2 p q) := rfl
  rw [hl, hr, rowOf_apply, rowOf_apply, rowOf_apply, rowOf_apply, rowsB_apply, rowsB_apply, rowsB_apply, rowsB_apply]
  have hs : (Host.sqrt (addf (colVar h) (broadcastInDim S128 ![] bc_S128 (constant (F := Ideal) S_ FTy.f32 925353388#32)))) (ix1 q)
      = Ideal.sqrt (colVar h (ix1 q) + Rows.eps) := rfl
  have hpos : 0 < colVar h (ix1 q) + Rows.eps := pos_of_nonneg_add_pos _ _ (colVar_nonneg h _) Laws.eps_pos
  rw [hs, Laws.mul_rsqrt _ _ hpos]

theorem norm_eq (h : FArr S50000x128) (g bt : FArr S128) : normK h g bt = normHost h g bt := by
  funext i
  obtain ⟨p, q, rfl⟩ : ∃ (p : Fin 50000) (q : Fin 128), i = ix2 p q := ⟨i 0, i 1, eq_ix2 i⟩
  exact norm_entry h g bt p q

theorem normRelu_eq (h : FArr S50000x128) (g bt : FArr S128) : normReluK h g bt = reluHost (normHost h g bt) := by
  funext i
  have hl : normReluK h g bt i = max (normK h g bt i) (Ideal.ofBits .f32 0x00000000#32) := rfl
  have hr : reluHost (normHost h g bt) i = max (normHost h g bt i) (Ideal.ofBits .f32 0#32) := rfl
  rw [hl, hr, norm_eq]

end Cert.Net

end
-- ==== Proof.Net.lean ====
/-
  The two writings of the network are one function of the arguments, for every input: stage by stage, the neighbourhood
  mean, the linear part and the normalisation agree.
-/
import proofs.«155655_j678604832875_1_alg».proof.Proof.NetDefs
import proofs.«155655_j678604832875_1_alg».proof.Proof.NetMean
import proofs.«155655_j678604832875_1_alg».proof.Proof.NetLin
import proofs.«155655_j678604832875_1_alg».proof.Proof.NetNorm
import Idealize.ShloMosaic.Lib.Pipeline.Value
import Idealize.ShloMosaic.Lib.ValueLayout

noncomputable section

namespace Cert.Net

open Idealize.ShloMosaic Idealize.ShloMosaic.ValueIdx Cert.Spec
open scoped BigOperators

/-! ## The network -/

theorem net_eq (x : FArr S50000x100) (e : IArr S2x800000) (wl0 : FArr S100x128) (b0 : FArr S128) (wr0 : FArr S100x128) (g0 bt0 : FArr S128)
    (wl1 : FArr S128x128) (b1 : FArr S128) (wr1 : FArr S128x128) (g1 bt1 : FArr S128) :
    netK x e wl0 b0 wr0 g0 bt0 wl1 b1 wr1 g1 bt1 = netR x e wl0 b0 wr0 g0 bt0 wl1 b1 wr1 g1 bt1 := by
  unfold netK netR linK128 linK100
  rw [norm_eq, normRelu_eq, lin128_eq, lin100_eq, mean100_eq, mean128_eq]

end Cert.Net

end
-- ==== Proof.Region0.lean ====
/-
  Pallas call 0: the linear part of the first layer, from blocks of 5000 rows to the whole matrix.

  Grid point t takes rows 5000 t .. 5000 t + 4999 of the two row-indexed operands and the whole of the two weight matrices
  and the bias row, and writes rows 5000 t .. 5000 t + 4999 of the result.  On a block the body is the linear part read at
  an entry (two products into zero accumulators, a change of float format being the identity, added; then the bias row
  laid under every row).  Entry (p, q) of a block depends on row p only, so block t of the body's result is block t of the
  linear part of the WHOLE operands; the ten blocks cover the 50000 rows, so the result array is that function.
-/
import proofs.«155655_j678604832875_1_alg».proof.Proof.Gen.KernelIdeal.Frame
import proofs.«155655_j678604832875_1_alg».proof.Proof.Rows
import proofs.«155655_j678604832875_1_alg».proof.Proof.LibDot
import Idealize.ShloMosaic.Lib.Pipeline.Value
import Idealize.ShloMosaic.Lib.ValueLayout
import Idealize.ShloMosaic.PureOps.Ideal

noncomputable section

open Idealize.ShloMosaic Idealize.ShloMosaic.TcCoe Idealize.SL.Sem
open Idealize.ShloMosaic.Pipeline (Dat)

namespace Cert.KernelIdeal.Hand0

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

theorem add3_apply {s : Shape} (a b c : FVec Ideal s .f32) (i : s.Idx) : addf (addf a b) c i = (a i + b i) + c i := rfl

/-- The body's stored value at entry (p, q) of a block. -/
theorem pay_apply (v0 v3 : Vec Ideal S5000x100 .f32) (v5 v7 : Vec Ideal S100x128 .f32) (v12 : Vec Ideal S1x128 .f32) (p : Fin 5000) (q : Fin 128) :
    k0_pay1 v0 v3 v5 v7 v12 (ix2 p q) = (Rows.prodAt v0 v5 p q + Rows.prodAt v3 v7 p q) + v12 (ix2 (0 : Fin 1) q) := by
  unfold k0_pay1
  simp only [shapeCast_self]
  refine (add3_apply _ _ _ _).trans ?_
  refine congrArg₂ (· + ·) (congrArg₂ (· + ·) ?_ ?_) ?_
  · exact LibDot.matmul_zero_apply dot_S5000x100_S100x128_S5000x128_1_0_0_1_n_n rfl rfl (fun _ _ => rfl) (fun _ _ => rfl) (fun _ _ => rfl) (fun _ _ => rfl) none _ _ p q
  · exact LibDot.matmul_zero_apply dot_S5000x100_S100x128_S5000x128_1_0_0_1_n_n rfl rfl (fun _ _ => rfl) (fun _ _ => rfl) (fun _ _ => rfl) (fun _ _ => rfl) none _ _ p q
  · exact broadcastTo_1b_ab_apply v12 _ p q

/-- The body's stored value IS the linear part on the block. -/
theorem pay_eq (v0 v3 : Vec Ideal S5000x100 .f32) (v5 v7 : Vec Ideal S100x128 .f32) (v12 : Vec Ideal S1x128 .f32) :
    (k0_pay1 v0 v3 v5 v7 v12 : S5000x128.Idx → EReal) = Rows.lin (n := 5000) (d := 100) (e := 128) v0 v3 v5 v7 v12 := by
  funext y
  rw [eq_ix2 y]
  exact pay_apply v0 v3 v5 v7 v12 (y 0) (y 1)

/-- The printed index maps over the grid: the row-indexed windows sit at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry y of the first row-indexed operand's block at point t is entry (5000 t + y 0, y 1) of its array. -/
theorem blk0_apply (c : Dev nD) (t : Fin cfg0.N) (y : S5000x100.Idx) (i : S50000x100.Idx)
    (h0 : (i 0).val = t.val * 5000 + (y 0).val) (h1 : (i 1).val = (y 1).val) :
    (iblk0 V c 0 t : S5000x100.Idx → EReal) y = (V c main_v24 : S50000x100.Idx → EReal) i := by
  obtain ⟨e00, e01, -⟩ := idx_facts t
  unfold iblk0
  rw [View.read_apply]
  show V c main_v24 _ = V c main_v24 i
  refine congrArg _ (funext fun a => Fin.ext ?_)
  match a with
  | ⟨0, _⟩ => show win0_0.index t (0 : Fin 2) * 5000 + 1 * (y 0).val = (i 0).val; rw [e00, h0]; omega
  | ⟨1, _⟩ => show win0_0.index t (1 : Fin 2) * 100 + 1 * (y 1).val = (i 1).val; rw [e01, h1]; omega

theorem blk1_apply (c : Dev nD) (t : Fin cfg0.N) (y : S5000x100.Idx) (i : S50000x100.Idx)
    (h0 : (i 0).val = t.val * 5000 + (y 0).val) (h1 : (i 1).val = (y 1).val) :
    (iblk0 V c 1 t : S5000x100.Idx → EReal) y = (V c main_arg0 : S50000x100.Idx → EReal) i := by
  obtain ⟨-, -, e10, e11, -⟩ := idx_facts t
  unfold iblk0
  rw [View.read_apply]
  show V c main_arg0 _ = V c main_arg0 i
  refine congrArg _ (funext fun a => Fin.ext ?_)
  match a with
  | ⟨0, _⟩ => show win0_1.index t (0 : Fin 2) * 5000 + 1 * (y 0).val = (i 0).val; rw [e10, h0]; omega
  | ⟨1, _⟩ => show win0_1.index t (1 : Fin 2) * 100 + 1 * (y 1).val = (i 1).val; rw [e11, h1]; omega

/-- The weight matrices' and the bias row's blocks are their whole arrays. -/
theorem blk2_eq (c : Dev nD) (t : Fin cfg0.N) : (iblk0 V c 2 t : S100x128.Idx → EReal) = V c main_arg2 := by
  obtain ⟨-, -, -, -, e20, e21, -⟩ := idx_facts t
  funext y
  unfold iblk0
  rw [View.read_apply]
  show V c main_arg2 _ = V c main_arg2 y
  refine congrArg _ (funext fun a => Fin.ext ?_)
  match a with
  | ⟨0, _⟩ => show win0_2.index t (0 : Fin 2) * 100 + 1 * (y 0).val = (y 0).val; rw [e20]; omega
  | ⟨1, _⟩ => show win0_2.index t (1 : Fin 2) * 128 + 1 * (y 1).val = (y 1).val; rw [e21]; omega

theorem blk3_eq (c : Dev nD) (t : Fin cfg0.N) : (iblk0 V c 3 t : S1x128.Idx → EReal) = V c main_v25 := by
  obtain ⟨-, -, -, -, -, -, e30, e31, -⟩ := idx_facts t
  funext y
  unfold iblk0
  rw [View.read_apply]
  show V c main_v25 _ = V c main_v25 y
  refine congrArg _ (funext fun a => Fin.ext ?_)
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

theorem blk4_eq (c : Dev nD) (t : Fin cfg0.N) : (iblk0 V c 4 t : S100x128.Idx → EReal) = V c main_arg4 := by
  obtain ⟨-, -, -, -, -, -, -, -, e40, e41, -⟩ := idx_facts t
  funext y
  unfold iblk0
  rw [View.read_apply]
  show V c main_arg4 _ = V c main_arg4 y
  refine congrArg _ (funext fun a => Fin.ext ?_)
  match a with
  | ⟨0, _⟩ => show win0_4.index t (0 : Fin 2) * 100 + 1 * (y 0).val = (y 0).val; rw [e40]; omega
  | ⟨1, _⟩ => show win0_4.index t (1 : Fin 2) * 128 + 1 * (y 1).val = (y 1).val; rw [e41]; omega

/-- The result as one function of the arrays the call finds. -/
abbrev result (c : Dev nD) : S50000x128.Idx → EReal :=
  Rows.lin (n := 50000) (d := 100) (e := 128) (V c main_v24) (V c main_arg0) (V c main_arg2) (V c main_arg4) (V c main_v25)

/-- What point t writes back is block t of the result. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x100) hz, View.ld_unit_zero (S := S100x128) hz, View.ld_unit_zero (S := S1x128) hz]
  rw [pay_eq, blk2_eq, blk3_eq, blk4_eq]
  obtain ⟨-, -, -, -, -, -, -, -, -, -, e50, e51⟩ := idx_facts t
  funext j
  rw [View.read_apply]
  have hj0 : (j 0).val < 5000 := (j 0).isLt
  have hj1 : (j 1).val < 128 := (j 1).isLt
  have c0 : ((((cfg0.win 5).blk t).view.emb j) 0).val = t.val * 5000 + (j 0).val := by
    show win0_5.index t (0 : Fin 2) * 5000 + 1 * (j 0).val = _; rw [e50]; omega
  have c1 : ((((cfg0.win 5).blk t).view.emb j) 1).val = (j 1).val := by
    show win0_5.index t (1 : Fin 2) * 128 + 1 * (j 1).val = _; rw [e51]; omega
  exact Rows.lin_congr (n := 5000) (n' := 50000) (d := 100) (e := 128) _ _ _ _ _ _ _ j _ (Fin.ext c1.symm)
    (fun k => blk0_apply V c t _ _ c0 rfl) (fun k => blk1_apply V c t _ _ c0 rfl)

theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row r lies in the block of point r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- The result array after the call. -/
theorem value (c : Dev nD) : (dat0 V c).arrAt 5 cfg0.N = result V c :=
  (dat0 V c).arrAt_eq_of_cover 5 (result V c) (fun t _ => flushed_eq V c t) cover

end Cert.KernelIdeal.Hand0

end
-- ==== Proof.Region1.lean ====
/-
  Pallas call 1: the normalisation of the first layer followed by max (., 0), from blocks of 5000 rows to the whole matrix.

  Grid point t takes rows 5000 t .. 5000 t + 4999 of the data and the whole of four [1, 128] rows (column mean, column
  variance, scale, shift), and writes rows 5000 t .. 5000 t + 4999 of the result.  On a block the body is, at (p, q),
  (g(0,q) * (h(p,q) - mean(0,q))) * (var(0,q) + eps)^(-1/2) + bt(0,q), then the maximum with 0: each row laid under every row of the block reads its entry
  (0, q).  Entry (p, q) depends on the data at (p, q) only, so block t of the body's result is block t of the same function
  of the WHOLE data; the ten blocks cover the 50000 rows.
-/
import proofs.«155655_j678604832875_1_alg».proof.Proof.Gen.KernelIdeal.Frame
import proofs.«155655_j678604832875_1_alg».proof.Proof.Rows
import Idealize.ShloMosaic.Lib.Pipeline.Value
import Idealize.ShloMosaic.Lib.ValueLayout
import Idealize.ShloMosaic.PureOps.Ideal

noncomputable section

open Idealize.ShloMosaic Idealize.ShloMosaic.TcCoe Idealize.SL.Sem
open Idealize.ShloMosaic.Pipeline (Dat)

namespace Cert.KernelIdeal.Hand1

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

theorem struct_apply {s : Shape} (g h m r b z : FVec Ideal s .f32) (i : s.Idx) :
    maximumf (addf (mulf (mulf g (subf h m)) r) b) z i = max ((g i * (h i - m i)) * r i + b i) (z i) := rfl

/-- The body's stored value at entry (p, q) of a block. -/
theorem pay_apply (v0 : Vec Ideal S5000x128 .f32) (v2 v7 v9 v17 : Vec Ideal S1x128 .f32) (p : Fin 5000) (q : Fin 128) :
    k1_pay1 v0 v2 v7 v9 v17 (ix2 p q) = Rows.normRelu (n := 5000) (e := 128) v0 v9 v2 v7 v17 (ix2 p q) := by
  unfold k1_pay1 Rows.normRelu Rows.norm
  simp only [shapeCast_self]
  refine (struct_apply _ _ _ _ _ _ _).trans ?_
  refine congrArg₂ max (congrArg₂ (· + ·) (congrArg₂ (· * ·) (congrArg₂ (· * ·) ?_ (congrArg₂ (· - ·) rfl ?_)) ?_) ?_) rfl
  · exact broadcastTo_1b_ab_apply v7 _ p q
  · exact broadcastTo_1b_ab_apply v9 _ p q
  · exact broadcastTo_1b_ab_apply (rsqrt (addf v2 (broadcast S1x128 (Scalar.ofBits (F := Ideal) .f32 0x3727C5AC#32)))) _ p q
  · exact broadcastTo_1b_ab_apply v17 _ p q

/-- The body's stored value IS the normalisation on the block. -/
theorem pay_eq (v0 : Vec Ideal S5000x128 .f32) (v2 v7 v9 v17 : Vec Ideal S1x128 .f32) :
    (k1_pay1 v0 v2 v7 v9 v17 : S5000x128.Idx → EReal) = Rows.normRelu (n := 5000) (e := 128) v0 v9 v2 v7 v17 := by
  funext y
  rw [eq_ix2 y]
  exact pay_apply v0 v2 v7 v9 v17 (y 0) (y 1)

/-- The printed index maps over the grid: the data window sits at block t, the four rows at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry y of the data's block at point t is entry (5000 t + y 0, y 1) of the data. -/
theorem blk0_apply (c : Dev nD) (t : Fin cfg1.N) (y : S5000x128.Idx) (i : S50000x128.Idx)
    (h0 : (i 0).val = t.val * 5000 + (y 0).val) (h1 : (i 1).val = (y 1).val) :
    (iblk1 V c 0 t : S5000x128.Idx → EReal) y = (V c main_v26 : S50000x128.Idx → EReal) i := by
  obtain ⟨e00, e01, -⟩ := idx_facts t
  unfold iblk1
  rw [View.read_apply]
  show V c main_v26 _ = V c main_v26 i
  refine congrArg _ (funext fun a => Fin.ext ?_)
  match a with
  | ⟨0, _⟩ => show win1_0.index t (0 : Fin 2) * 5000 + 1 * (y 0).val = (i 0).val; rw [e00, h0]; omega
  | ⟨1, _⟩ => show win1_0.index t (1 : Fin 2) * 128 + 1 * (y 1).val = (i 1).val; rw [e01, h1]; omega

/-- The four rows' blocks are their whole arrays. -/
theorem blk1_eq (c : Dev nD) (t : Fin cfg1.N) : (iblk1 V c 1 t : S1x128.Idx → EReal) = V c main_v31 := by
  obtain ⟨-, -, e0, e1, -⟩ := idx_facts t
  funext y
  unfold iblk1
  rw [View.read_apply]
  show V c main_v31 _ = V c main_v31 y
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

theorem blk2_eq (c : Dev nD) (t : Fin cfg1.N) : (iblk1 V c 2 t : S1x128.Idx → EReal) = V c main_v32 := by
  obtain ⟨-, -, -, -, e0, e1, -⟩ := idx_facts t
  funext y
  unfold iblk1
  rw [View.read_apply]
  show V c main_v32 _ = V c main_v32 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem blk3_eq (c : Dev nD) (t : Fin cfg1.N) : (iblk1 V c 3 t : S1x128.Idx → EReal) = V c main_v33 := by
  obtain ⟨-, -, -, -, -, -, e0, e1, -⟩ := idx_facts t
  funext y
  unfold iblk1
  rw [View.read_apply]
  show V c main_v33 _ = V c main_v33 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem blk4_eq (c : Dev nD) (t : Fin cfg1.N) : (iblk1 V c 4 t : S1x128.Idx → EReal) = V c main_v34 := by
  obtain ⟨-, -, -, -, -, -, -, -, e0, e1, -⟩ := idx_facts t
  funext y
  unfold iblk1
  rw [View.read_apply]
  show V c main_v34 _ = V c main_v34 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The result as one function of the arrays the call finds. -/
abbrev result (c : Dev nD) : S50000x128.Idx → EReal :=
  Rows.normRelu (n := 50000) (e := 128) (V c main_v26) (V c main_v31) (V c main_v32) (V c main_v33) (V c main_v34)

/-- What point t writes back is block t of the result. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  rw [pay_eq, blk1_eq, blk2_eq, blk3_eq, blk4_eq]
  obtain ⟨-, -, -, -, -, -, -, -, -, -, e50, e51⟩ := idx_facts t
  funext j
  rw [View.read_apply]
  have hj0 : (j 0).val < 5000 := (j 0).isLt
  have hj1 : (j 1).val < 128 := (j 1).isLt
  have c0 : ((((cfg1.win 5).blk t).view.emb j) 0).val = t.val * 5000 + (j 0).val := by
    show win1_5.index t (0 : Fin 2) * 5000 + 1 * (j 0).val = _; rw [e50]; omega
  have c1 : ((((cfg1.win 5).blk t).view.emb j) 1).val = (j 1).val := by
    show win1_5.index t (1 : Fin 2) * 128 + 1 * (j 1).val = _; rw [e51]; omega
  exact Rows.normRelu_congr (n := 5000) (n' := 50000) (e := 128) _ _ _ _ _ _ j _ (Fin.ext c1.symm)
    (blk0_apply V c t _ _ c0 c1)

theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- Row r lies in the block of point r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- The result array after the call. -/
theorem value (c : Dev nD) : (dat1 V c).arrAt 5 cfg1.N = result V c :=
  (dat1 V c).arrAt_eq_of_cover 5 (result V c) (fun t _ => flushed_eq V c t) cover

end Cert.KernelIdeal.Hand1

end
-- ==== Proof.Region2.lean ====
/-
  Pallas call 2: the linear part of the second layer, from blocks of 5000 rows to the whole matrix.

  Grid point t takes rows 5000 t .. 5000 t + 4999 of the two row-indexed operands and the whole of the two weight matrices
  and the bias row, and writes rows 5000 t .. 5000 t + 4999 of the result.  On a block the body is the linear part read at
  an entry (two products into zero accumulators, a change of float format being the identity, added; then the bias row
  laid under every row).  Entry (p, q) of a block depends on row p only, so block t of the body's result is block t of the
  linear part of the WHOLE operands; the ten blocks cover the 50000 rows, so the result array is that function.
-/
import proofs.«155655_j678604832875_1_alg».proof.Proof.Gen.KernelIdeal.Frame
import proofs.«155655_j678604832875_1_alg».proof.Proof.Rows
import proofs.«155655_j678604832875_1_alg».proof.Proof.LibDot
import Idealize.ShloMosaic.Lib.Pipeline.Value
import Idealize.ShloMosaic.Lib.ValueLayout
import Idealize.ShloMosaic.PureOps.Ideal

noncomputable section

open Idealize.ShloMosaic Idealize.ShloMosaic.TcCoe Idealize.SL.Sem
open Idealize.ShloMosaic.Pipeline (Dat)

namespace Cert.KernelIdeal.Hand2

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

theorem add3_apply {s : Shape} (a b c : FVec Ideal s .f32) (i : s.Idx) : addf (addf a b) c i = (a i + b i) + c i := rfl

/-- The body's stored value at entry (p, q) of a block. -/
theorem pay_apply (v0 v3 : Vec Ideal S5000x128 .f32) (v5 v7 : Vec Ideal S128x128 .f32) (v12 : Vec Ideal S1x128 .f32) (p : Fin 5000) (q : Fin 128) :
    k2_pay1 v0 v3 v5 v7 v12 (ix2 p q) = (Rows.prodAt v0 v5 p q + Rows.prodAt v3 v7 p q) + v12 (ix2 (0 : Fin 1) q) := by
  unfold k2_pay1
  simp only [shapeCast_self]
  refine (add3_apply _ _ _ _).trans ?_
  refine congrArg₂ (· + ·) (congrArg₂ (· + ·) ?_ ?_) ?_
  · exact LibDot.matmul_zero_apply dot_S5000x128_S128x128_S5000x128_1_0_0_1_n_n rfl rfl (fun _ _ => rfl) (fun _ _ => rfl) (fun _ _ => rfl) (fun _ _ => rfl) none _ _ p q
  · exact LibDot.matmul_zero_apply dot_S5000x128_S128x128_S5000x128_1_0_0_1_n_n rfl rfl (fun _ _ => rfl) (fun _ _ => rfl) (fun _ _ => rfl) (fun _ _ => rfl) none _ _ p q
  · exact broadcastTo_1b_ab_apply v12 _ p q

/-- The body's stored value IS the linear part on the block. -/
theorem pay_eq (v0 v3 : Vec Ideal S5000x128 .f32) (v5 v7 : Vec Ideal S128x128 .f32) (v12 : Vec Ideal S1x128 .f32) :
    (k2_pay1 v0 v3 v5 v7 v12 : S5000x128.Idx → EReal) = Rows.lin (n := 5000) (d := 128) (e := 128) v0 v3 v5 v7 v12 := by
  funext y
  rw [eq_ix2 y]
  exact pay_apply v0 v3 v5 v7 v12 (y 0) (y 1)

/-- The printed index maps over the grid: the row-indexed windows sit at block t, the others at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry y of the first row-indexed operand's block at point t is entry (5000 t + y 0, y 1) of its array. -/
theorem blk0_apply (c : Dev nD) (t : Fin cfg2.N) (y : S5000x128.Idx) (i : S50000x128.Idx)
    (h0 : (i 0).val = t.val * 5000 + (y 0).val) (h1 : (i 1).val = (y 1).val) :
    (iblk2 V c 0 t : S5000x128.Idx → EReal) y = (V c main_v48 : S50000x128.Idx → EReal) i := by
  obtain ⟨e00, e01, -⟩ := idx_facts t
  unfold iblk2
  rw [View.read_apply]
  show V c main_v48 _ = V c main_v48 i
  refine congrArg _ (funext fun a => Fin.ext ?_)
  match a with
  | ⟨0, _⟩ => show win2_0.index t (0 : Fin 2) * 5000 + 1 * (y 0).val = (i 0).val; rw [e00, h0]; omega
  | ⟨1, _⟩ => show win2_0.index t (1 : Fin 2) * 128 + 1 * (y 1).val = (i 1).val; rw [e01, h1]; omega

theorem blk1_apply (c : Dev nD) (t : Fin cfg2.N) (y : S5000x128.Idx) (i : S50000x128.Idx)
    (h0 : (i 0).val = t.val * 5000 + (y 0).val) (h1 : (i 1).val = (y 1).val) :
    (iblk2 V c 1 t : S5000x128.Idx → EReal) y = (V c main_v35 : S50000x128.Idx → EReal) i := by
  obtain ⟨-, -, e10, e11, -⟩ := idx_facts t
  unfold iblk2
  rw [View.read_apply]
  show V c main_v35 _ = V c main_v35 i
  refine congrArg _ (funext fun a => Fin.ext ?_)
  match a with
  | ⟨0, _⟩ => show win2_1.index t (0 : Fin 2) * 5000 + 1 * (y 0).val = (i 0).val; rw [e10, h0]; omega
  | ⟨1, _⟩ => show win2_1.index t (1 : Fin 2) * 128 + 1 * (y 1).val = (i 1).val; rw [e11, h1]; omega

/-- The weight matrices' and the bias row's blocks are their whole arrays. -/
theorem blk2_eq (c : Dev nD) (t : Fin cfg2.N) : (iblk2 V c 2 t : S128x128.Idx → EReal) = V c main_arg7 := by
  obtain ⟨-, -, -, -, e20, e21, -⟩ := idx_facts t
  funext y
  unfold iblk2
  rw [View.read_apply]
  show V c main_arg7 _ = V c main_arg7 y
  refine congrArg _ (funext fun a => Fin.ext ?_)
  match a with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega

theorem blk3_eq (c : Dev nD) (t : Fin cfg2.N) : (iblk2 V c 3 t : S1x128.Idx → EReal) = V c main_v49 := by
  obtain ⟨-, -, -, -, -, -, e30, e31, -⟩ := idx_facts t
  funext y
  unfold iblk2
  rw [View.read_apply]
  show V c main_v49 _ = V c main_v49 y
  refine congrArg _ (funext fun a => Fin.ext ?_)
  match a with
  | ⟨0, _⟩ => show win2_3.index t (0 : Fin 2) * 1 + 1 * (y 0).val = (y 0).val; rw [e30]; omega
  | ⟨1, _⟩ => show win2_3.index t (1 : Fin 2) * 128 + 1 * (y 1).val = (y 1).val; rw [e31]; omega

theorem blk4_eq (c : Dev nD) (t : Fin cfg2.N) : (iblk2 V c 4 t : S128x128.Idx → EReal) = V c main_arg9 := by
  obtain ⟨-, -, -, -, -, -, -, -, e40, e41, -⟩ := idx_facts t
  funext y
  unfold iblk2
  rw [View.read_apply]
  show V c main_arg9 _ = V c main_arg9 y
  refine congrArg _ (funext fun a => Fin.ext ?_)
  match a with
  | ⟨0, _⟩ => show win2_4.index t (0 : Fin 2) * 128 + 1 * (y 0).val = (y 0).val; rw [e40]; omega
  | ⟨1, _⟩ => show win2_4.index t (1 : Fin 2) * 128 + 1 * (y 1).val = (y 1).val; rw [e41]; omega

/-- The result as one function of the arrays the call finds. -/
abbrev result (c : Dev nD) : S50000x128.Idx → EReal :=
  Rows.lin (n := 50000) (d := 128) (e := 128) (V c main_v48) (V c main_v35) (V c main_arg7) (V c main_arg9) (V c main_v49)

/-- What point t writes back is block t of the result. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [pay_eq, blk2_eq, blk3_eq, blk4_eq]
  obtain ⟨-, -, -, -, -, -, -, -, -, -, e50, e51⟩ := idx_facts t
  funext j
  rw [View.read_apply]
  have hj0 : (j 0).val < 5000 := (j 0).isLt
  have hj1 : (j 1).val < 128 := (j 1).isLt
  have c0 : ((((cfg2.win 5).blk t).view.emb j) 0).val = t.val * 5000 + (j 0).val := by
    show win2_5.index t (0 : Fin 2) * 5000 + 1 * (j 0).val = _; rw [e50]; omega
  have c1 : ((((cfg2.win 5).blk t).view.emb j) 1).val = (j 1).val := by
    show win2_5.index t (1 : Fin 2) * 128 + 1 * (j 1).val = _; rw [e51]; omega
  exact Rows.lin_congr (n := 5000) (n' := 50000) (d := 128) (e := 128) _ _ _ _ _ _ _ j _ (Fin.ext c1.symm)
    (fun k => blk0_apply V c t _ _ c0 rfl) (fun k => blk1_apply V c t _ _ c0 rfl)

theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v50).slice (win2_5.rect t)).set ↔ _
  rw [View.set_slice_whole, Rect.mem_set_unit]
  exact Iff.rfl

/-- Row r lies in the block of point r / 5000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, -, -, -, -, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]; omega

/-- The result array after the call. -/
theorem value (c : Dev nD) : (dat2 V c).arrAt 5 cfg2.N = result V c :=
  (dat2 V c).arrAt_eq_of_cover 5 (result V c) (fun t _ => flushed_eq V c t) cover

end Cert.KernelIdeal.Hand2

end
-- ==== Proof.Region3.lean ====
/-
  Pallas call 3: the normalisation of the second layer, from blocks of 5000 rows to the whole matrix.

  Grid point t takes rows 5000 t .. 5000 t + 4999 of the data and the whole of four [1, 128] rows (column mean, column
  variance, scale, shift), and writes rows 5000 t .. 5000 t + 4999 of the result.  On a block the body is, at (p, q),
  (g(0,q) * (h(p,q) - mean(0,q))) * (var(0,q) + eps)^(-1/2) + bt(0,q): each row laid under every row of the block reads its entry
  (0, q).  Entry (p, q) depends on the data at (p, q) only, so block t of the body's result is block t of the same function
  of the WHOLE data; the ten blocks cover the 50000 rows.
-/
import proofs.«155655_j678604832875_1_alg».proof.Proof.Gen.KernelIdeal.Frame
import proofs.«155655_j678604832875_1_alg».proof.Proof.Rows
import Idealize.ShloMosaic.Lib.Pipeline.Value
import Idealize.ShloMosaic.Lib.ValueLayout
import Idealize.ShloMosaic.PureOps.Ideal

noncomputable section

open Idealize.ShloMosaic Idealize.ShloMosaic.TcCoe Idealize.SL.Sem
open Idealize.ShloMosaic.Pipeline (Dat)

namespace Cert.KernelIdeal.Hand3

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

theorem struct_apply {s : Shape} (g h m r b : FVec Ideal s .f32) (i : s.Idx) :
    addf (mulf (mulf g (subf h m)) r) b i = (g i * (h i - m i)) * r i + b i := rfl

/-- The body's stored value at entry (p, q) of a block. -/
theorem pay_apply (v0 : Vec Ideal S5000x128 .f32) (v2 v7 v9 v17 : Vec Ideal S1x128 .f32) (p : Fin 5000) (q : Fin 128) :
    k3_pay1 v0 v2 v7 v9 v17 (ix2 p q) = Rows.norm (n := 5000) (e := 128) v0 v9 v2 v7 v17 (ix2 p q) := by
  unfold k3_pay1 Rows.norm
  simp only [shapeCast_self]
  refine (struct_apply _ _ _ _ _ _).trans ?_
  refine (congrArg₂ (· + ·) (congrArg₂ (· * ·) (congrArg₂ (· * ·) ?_ (congrArg₂ (· - ·) rfl ?_)) ?_) ?_)
  · exact broadcastTo_1b_ab_apply v7 _ p q
  · exact broadcastTo_1b_ab_apply v9 _ p q
  · exact broadcastTo_1b_ab_apply (rsqrt (addf v2 (broadcast S1x128 (Scalar.ofBits (F := Ideal) .f32 0x3727C5AC#32)))) _ p q
  · exact broadcastTo_1b_ab_apply v17 _ p q

/-- The body's stored value IS the normalisation on the block. -/
theorem pay_eq (v0 : Vec Ideal S5000x128 .f32) (v2 v7 v9 v17 : Vec Ideal S1x128 .f32) :
    (k3_pay1 v0 v2 v7 v9 v17 : S5000x128.Idx → EReal) = Rows.norm (n := 5000) (e := 128) v0 v9 v2 v7 v17 := by
  funext y
  rw [eq_ix2 y]
  exact pay_apply v0 v2 v7 v9 v17 (y 0) (y 1)

/-- The printed index maps over the grid: the data window sits at block t, the four rows at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry y of the data's block at point t is entry (5000 t + y 0, y 1) of the data. -/
theorem blk0_apply (c : Dev nD) (t : Fin cfg3.N) (y : S5000x128.Idx) (i : S50000x128.Idx)
    (h0 : (i 0).val = t.val * 5000 + (y 0).val) (h1 : (i 1).val = (y 1).val) :
    (iblk3 V c 0 t : S5000x128.Idx → EReal) y = (V c main_v50 : S50000x128.Idx → EReal) i := by
  obtain ⟨e00, e01, -⟩ := idx_facts t
  unfold iblk3
  rw [View.read_apply]
  show V c main_v50 _ = V c main_v50 i
  refine congrArg _ (funext fun a => Fin.ext ?_)
  match a with
  | ⟨0, _⟩ => show win3_0.index t (0 : Fin 2) * 5000 + 1 * (y 0).val = (i 0).val; rw [e00, h0]; omega
  | ⟨1, _⟩ => show win3_0.index t (1 : Fin 2) * 128 + 1 * (y 1).val = (i 1).val; rw [e01, h1]; omega

/-- The four rows' blocks are their whole arrays. -/
theorem blk1_eq (c : Dev nD) (t : Fin cfg3.N) : (iblk3 V c 1 t : S1x128.Idx → EReal) = V c main_v55 := by
  obtain ⟨-, -, e0, e1, -⟩ := idx_facts t
  funext y
  unfold iblk3
  rw [View.read_apply]
  show V c main_v55 _ = V c main_v55 y
  refine congrArg _ (funext fun a => Fin.ext ?_)
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

theorem blk2_eq (c : Dev nD) (t : Fin cfg3.N) : (iblk3 V c 2 t : S1x128.Idx → EReal) = V c main_v56 := by
  obtain ⟨-, -, -, -, e0, e1, -⟩ := idx_facts t
  funext y
  unfold iblk3
  rw [View.read_apply]
  show V c main_v56 _ = V c main_v56 y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

theorem blk3_eq (c : Dev nD) (t : Fin cfg3.N) : (iblk3 V c 3 t : S1x128.Idx → EReal) = V c main_v57 := by
  obtain ⟨-, -, -, -, -, -, e0, e1, -⟩ := idx_facts t
  funext y
  unfold iblk3
  rw [View.read_apply]
  show V c main_v57 _ = V c main_v57 y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem blk4_eq (c : Dev nD) (t : Fin cfg3.N) : (iblk3 V c 4 t : S1x128.Idx → EReal) = V c main_v58 := by
  obtain ⟨-, -, -, -, -, -, -, -, e0, e1, -⟩ := idx_facts t
  funext y
  unfold iblk3
  rw [View.read_apply]
  show V c main_v58 _ = V c main_v58 y
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- The result as one function of the arrays the call finds. -/
abbrev result (c : Dev nD) : S50000x128.Idx → EReal :=
  Rows.norm (n := 50000) (e := 128) (V c main_v50) (V c main_v55) (V c main_v56) (V c main_v57) (V c main_v58)

/-- What point t writes back is block t of the result. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  rw [pay_eq, blk1_eq, blk2_eq, blk3_eq, blk4_eq]
  obtain ⟨-, -, -, -, -, -, -, -, -, -, e50, e51⟩ := idx_facts t
  funext j
  rw [View.read_apply]
  have hj0 : (j 0).val < 5000 := (j 0).isLt
  have hj1 : (j 1).val < 128 := (j 1).isLt
  have c0 : ((((cfg3.win 5).blk t).view.emb j) 0).val = t.val * 5000 + (j 0).val := by
    show win3_5.index t (0 : Fin 2) * 5000 + 1 * (j 0).val = _; rw [e50]; omega
  have c1 : ((((cfg3.win 5).blk t).view.emb j) 1).val = (j 1).val := by
    show win3_5.index t (1 : Fin 2) * 128 + 1 * (j 1).val = _; rw [e51]; omega
  exact Rows.norm_congr (n := 5000) (n' := 50000) (e := 128) _ _ _ _ _ _ j _ (Fin.ext c1.symm)
    (blk0_apply V c t _ _ c0 c1)

theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v59).slice (win3_5.rect t)).set ↔ _
  rw [View.set_slice_whole, Rect.mem_set_unit]
  exact Iff.rfl

/-- Row r lies in the block of point r / 5000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, -, -, -, -, -, -, e50, e51⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e51]; omega

/-- The result array after the call. -/
theorem value (c : Dev nD) : (dat3 V c).arrAt 5 cfg3.N = result V c :=
  (dat3 V c).arrAt_eq_of_cover 5 (result V c) (fun t _ => flushed_eq V c t) cover

end Cert.KernelIdeal.Hand3

end
-- ==== Proof.KRead1.lean ====
/-
  The host lines before the first pallas call, read from the launch memory: the neighbourhood mean of the input
  features (sum times reciprocal count), the bias as a [1, 128] row, and the buffers later lines read again (the two
  rows of the edge table, the reciprocal counts, the arguments).
-/
import proofs.«155655_j678604832875_1_alg».proof.Proof.Gen.KernelIdeal.Frame
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.KernelIdeal.Read1

open Cert.KernelIdeal Cert.KernelIdeal.Gen Idealize.ShloMosaic.StableHlo

variable (m : (ℓ : Loc nD τ sig) → Buf (Elt Ideal) ℓ) (ρ : Dev nD → PrngReg) (c : Dev nD)
theorem v24 : V1 m ρ c main_v24 = Spec.meanMul100 (m ((c : Thread nD τ).loc main_arg0)) (m ((c : Thread nD τ).loc main_arg1)) := by
  show StableHlo.after hostOps0 (W0 m ρ c) (Proc.devRef .tc main_v24) = _
  dsimp only [hostOps0]
  after_results_simp <;> rfl
theorem v25 : V1 m ρ c main_v25 = Spec.rowOf (m ((c : Thread nD τ).loc main_arg3)) := by
  show StableHlo.after hostOps0 (W0 m ρ c) (Proc.devRef .tc main_v25) = _
  dsimp only [hostOps0]
  after_results_simp <;> rfl
theorem v1 : V1 m ρ c main_v1 = Spec.srcRow (m ((c : Thread nD τ).loc main_arg1)) := by
  show StableHlo.after hostOps0 (W0 m ρ c) (Proc.devRef .tc main_v1) = _
  dsimp only [hostOps0]
  after_results_simp <;> rfl
theorem v3 : V1 m ρ c main_v3 = Spec.dstRow (m ((c : Thread nD τ).loc main_arg1)) := by
  show StableHlo.after hostOps0 (W0 m ρ c) (Proc.devRef .tc main_v3) = _
  dsimp only [hostOps0]
  after_results_simp <;> rfl
theorem v11 : V1 m ρ c main_v11 = Spec.invCnt (m ((c : Thread nD τ).loc main_arg1)) := by
  show StableHlo.after hostOps0 (W0 m ρ c) (Proc.devRef .tc main_v11) = _
  dsimp only [hostOps0]
  after_results_simp <;> rfl
theorem arg0 : V1 m ρ c main_arg0 = (m ((c : Thread nD τ).loc main_arg0)) := by
  show StableHlo.after hostOps0 (W0 m ρ c) (Proc.devRef .tc main_arg0) = _
  dsimp only [hostOps0]
  after_results_simp <;> rfl
theorem arg2 : V1 m ρ c main_arg2 = (m ((c : Thread nD τ).loc main_arg2)) := by
  show StableHlo.after hostOps0 (W0 m ρ c) (Proc.devRef .tc main_arg2) = _
  dsimp only [hostOps0]
  after_results_simp <;> rfl
theorem arg4 : V1 m ρ c main_arg4 = (m ((c : Thread nD τ).loc main_arg4)) := by
  show StableHlo.after hostOps0 (W0 m ρ c) (Proc.devRef .tc main_arg4) = _
  dsimp only [hostOps0]
  after_results_simp <;> rfl
theorem arg5 : V1 m ρ c main_arg5 = (m ((c : Thread nD τ).loc main_arg5)) := by
  show StableHlo.after hostOps0 (W0 m ρ c) (Proc.devRef .tc main_arg5) = _
  dsimp only [hostOps0]
  after_results_simp <;> rfl
theorem arg6 : V1 m ρ c main_arg6 = (m ((c : Thread nD τ).loc main_arg6)) := by
  show StableHlo.after hostOps0 (W0 m ρ c) (Proc.devRef .tc main_arg6) = _
  dsimp only [hostOps0]
  after_results_simp <;> rfl
theorem arg7 : V1 m ρ c main_arg7 = (m ((c : Thread nD τ).loc main_arg7)) := by
  show StableHlo.after hostOps0 (W0 m ρ c) (Proc.devRef .tc main_arg7) = _
  dsimp only [hostOps0]
  after_results_simp <;> rfl
theorem arg8 : V1 m ρ c main_arg8 = (m ((c : Thread nD τ).loc main_arg8)) := by
  show StableHlo.after hostOps0 (W0 m ρ c) (Proc.devRef .tc main_arg8) = _
  dsimp only [hostOps0]
  after_results_simp <;> rfl
theorem arg9 : V1 m ρ c main_arg9 = (m ((c : Thread nD τ).loc main_arg9)) := by
  show StableHlo.after hostOps0 (W0 m ρ c) (Proc.devRef .tc main_arg9) = _
  dsimp only [hostOps0]
  after_results_simp <;> rfl
theorem arg10 : V1 m ρ c main_arg10 = (m ((c : Thread nD τ).loc main_arg10)) := by
  show StableHlo.after hostOps0 (W0 m ρ c) (Proc.devRef .tc main_arg10) = _
  dsimp only [hostOps0]
  after_results_simp <;> rfl
theorem arg11 : V1 m ρ c main_arg11 = (m ((c : Thread nD τ).loc main_arg11)) := by
  show StableHlo.after hostOps0 (W0 m ρ c) (Proc.devRef .tc main_arg11) = _
  dsimp only [hostOps0]
  after_results_simp <;> rfl

end Cert.KernelIdeal.Read1

end
-- ==== Proof.KRead5.lean ====
/-
  The host lines between the first and the second pallas call, read from the contents the first call leaves: the column
  means and variances of its result and the scale and shift, each as a [1, 128] row; the buffers later lines read again.
-/
import proofs.«155655_j678604832875_1_alg».proof.Proof.Gen.KernelIdeal.Frame
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.KernelIdeal.Read5

open Cert.KernelIdeal Cert.KernelIdeal.Gen Idealize.ShloMosaic.StableHlo

variable (m : (ℓ : Loc nD τ sig) → Buf (Elt Ideal) ℓ) (ρ : Dev nD → PrngReg) (c : Dev nD)
theorem v31 : V5 m ρ c main_v31 = Spec.rowOf (Spec.colMean (W2 m ρ c (Proc.devRef .tc main_v26))) := by
  show StableHlo.after hostOps1_2 (StableHlo.after hostOps1_1 (StableHlo.after hostOps1 (W2 m ρ c))) (Proc.devRef .tc main_v31) = _
  dsimp only [hostOps1, hostOps1_1, hostOps1_2]
  after_results_simp <;> rfl
theorem v32 : V5 m ρ c main_v32 = Spec.rowOf (Spec.colVar (W2 m ρ c (Proc.devRef .tc main_v26))) := by
  show StableHlo.after hostOps1_2 (StableHlo.after hostOps1_1 (StableHlo.after hostOps1 (W2 m ρ c))) (Proc.devRef .tc main_v32) = _
  dsimp only [hostOps1, hostOps1_1, hostOps1_2]
  after_results_simp <;> rfl
theorem v33 : V5 m ρ c main_v33 = Spec.rowOf (W2 m ρ c (Proc.devRef .tc main_arg5)) := by
  show StableHlo.after hostOps1_2 (StableHlo.after hostOps1_1 (StableHlo.after hostOps1 (W2 m ρ c))) (Proc.devRef .tc main_v33) = _
  dsimp only [hostOps1, hostOps1_1, hostOps1_2]
  after_results_simp <;> rfl
theorem v34 : V5 m ρ c main_v34 = Spec.rowOf (W2 m ρ c (Proc.devRef .tc main_arg6)) := by
  show StableHlo.after hostOps1_2 (StableHlo.after hostOps1_1 (StableHlo.after hostOps1 (W2 m ρ c))) (Proc.devRef .tc main_v34) = _
  dsimp only [hostOps1, hostOps1_1, hostOps1_2]
  after_results_simp <;> rfl
theorem v26 : V5 m ρ c main_v26 = (W2 m ρ c (Proc.devRef .tc main_v26)) := by
  show StableHlo.after hostOps1_2 (StableHlo.after hostOps1_1 (StableHlo.after hostOps1 (W2 m ρ c))) (Proc.devRef .tc main_v26) = _
  dsimp only [hostOps1, hostOps1_1, hostOps1_2]
  after_results_simp <;> rfl
theorem v1 : V5 m ρ c main_v1 = (W2 m ρ c (Proc.devRef .tc main_v1)) := by
  show StableHlo.after hostOps1_2 (StableHlo.after hostOps1_1 (StableHlo.after hostOps1 (W2 m ρ c))) (Proc.devRef .tc main_v1) = _
  dsimp only [hostOps1, hostOps1_1, hostOps1_2]
  after_results_simp <;> rfl
theorem v3 : V5 m ρ c main_v3 = (W2 m ρ c (Proc.devRef .tc main_v3)) := by
  show StableHlo.after hostOps1_2 (StableHlo.after hostOps1_1 (StableHlo.after hostOps1 (W2 m ρ c))) (Proc.devRef .tc main_v3) = _
  dsimp only [hostOps1, hostOps1_1, hostOps1_2]
  after_results_simp <;> rfl
theorem v11 : V5 m ρ c main_v11 = (W2 m ρ c (Proc.devRef .tc main_v11)) := by
  show StableHlo.after hostOps1_2 (StableHlo.after hostOps1_1 (StableHlo.after hostOps1 (W2 m ρ c))) (Proc.devRef .tc main_v11) = _
  dsimp only [hostOps1, hostOps1_1, hostOps1_2]
  after_results_simp <;> rfl
theorem arg7 : V5 m ρ c main_arg7 = (W2 m ρ c (Proc.devRef .tc main_arg7)) := by
  show StableHlo.after hostOps1_2 (StableHlo.after hostOps1_1 (StableHlo.after hostOps1 (W2 m ρ c))) (Proc.devRef .tc main_arg7) = _
  dsimp only [hostOps1, hostOps1_1, hostOps1_2]
  after_results_simp <;> rfl
theorem arg8 : V5 m ρ c main_arg8 = (W2 m ρ c (Proc.devRef .tc main_arg8)) := by
  show StableHlo.after hostOps1_2 (StableHlo.after hostOps1_1 (StableHlo.after hostOps1 (W2 m ρ c))) (Proc.devRef .tc main_arg8) = _
  dsimp only [hostOps1, hostOps1_1, hostOps1_2]
  after_results_simp <;> rfl
theorem arg9 : V5 m ρ c main_arg9 = (W2 m ρ c (Proc.devRef .tc main_arg9)) := by
  show StableHlo.after hostOps1_2 (StableHlo.after hostOps1_1 (StableHlo.after hostOps1 (W2 m ρ c))) (Proc.devRef .tc main_arg9) = _
  dsimp only [hostOps1, hostOps1_1, hostOps1_2]
  after_results_simp <;> rfl
theorem arg10 : V5 m ρ c main_arg10 = (W2 m ρ c (Proc.devRef .tc main_arg10)) := by
  show StableHlo.after hostOps1_2 (StableHlo.after hostOps1_1 (StableHlo.after hostOps1 (W2 m ρ c))) (Proc.devRef .tc main_arg10) = _
  dsimp only [hostOps1, hostOps1_1, hostOps1_2]
  after_results_simp <;> rfl
theorem arg11 : V5 m ρ c main_arg11 = (W2 m ρ c (Proc.devRef .tc main_arg11)) := by
  show StableHlo.after hostOps1_2 (StableHlo.after hostOps1_1 (StableHlo.after hostOps1 (W2 m ρ c))) (Proc.devRef .tc main_arg11) = _
  dsimp only [hostOps1, hostOps1_1, hostOps1_2]
  after_results_simp <;> rfl

end Cert.KernelIdeal.Read5

end
-- ==== Proof.KRead7.lean ====
/-
  The host lines between the second and the third pallas call, read from the contents the second call leaves: the
  neighbourhood mean of the first layer's output (sum times reciprocal count) and the second bias as a [1, 128] row.
-/
import proofs.«155655_j678604832875_1_alg».proof.Proof.Gen.KernelIdeal.Frame
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.KernelIdeal.Read7

open Cert.KernelIdeal Cert.KernelIdeal.Gen Idealize.ShloMosaic.StableHlo

variable (m : (ℓ : Loc nD τ sig) → Buf (Elt Ideal) ℓ) (ρ : Dev nD → PrngReg) (c : Dev nD)
theorem v48 : V7 m ρ c main_v48 =
    mulf (Host.scatterAdd Spec.scatter128 (broadcastInDim Spec.S50000x128 ![] Spec.bc_S50000x128 (constant (F := Ideal) Spec.S_ FTy.f32 0#32))
        (broadcastInDim Spec.S800000x1 ![0] Spec.bc_col (W6 m ρ c (Proc.devRef .tc main_v3)))
        (Host.gather Spec.gather128 (W6 m ρ c (Proc.devRef .tc main_v35))
          (broadcastInDim Spec.S800000x1 ![0] Spec.bc_col
            (select (cmpi CmpIPredicate.slt (W6 m ρ c (Proc.devRef .tc main_v1)) (broadcastInDim Spec.S800000 ![] Spec.bc_S800000 (constantI Spec.S_ 32 0#32)))
              (addi (W6 m ρ c (Proc.devRef .tc main_v1)) (broadcastInDim Spec.S800000 ![] Spec.bc_S800000 (constantI Spec.S_ 32 50000#32))) (W6 m ρ c (Proc.devRef .tc main_v1))))))
      (broadcastInDim Spec.S50000x128 ![0, 1] Spec.bc_node128 (broadcastInDim Spec.S50000x1 ![0] Spec.bc_nodeCol (W6 m ρ c (Proc.devRef .tc main_v11)))) := by
  show StableHlo.after hostOps2 (W6 m ρ c) (Proc.devRef .tc main_v48) = _
  dsimp only [hostOps2]
  after_results_simp <;> rfl
theorem v49 : V7 m ρ c main_v49 = Spec.rowOf (W6 m ρ c (Proc.devRef .tc main_arg8)) := by
  show StableHlo.after hostOps2 (W6 m ρ c) (Proc.devRef .tc main_v49) = _
  dsimp only [hostOps2]
  after_results_simp <;> rfl
theorem v35 : V7 m ρ c main_v35 = (W6 m ρ c (Proc.devRef .tc main_v35)) := by
  show StableHlo.after hostOps2 (W6 m ρ c) (Proc.devRef .tc main_v35) = _
  dsimp only [hostOps2]
  after_results_simp <;> rfl
theorem arg7 : V7 m ρ c main_arg7 = (W6 m ρ c (Proc.devRef .tc main_arg7)) := by
  show StableHlo.after hostOps2 (W6 m ρ c) (Proc.devRef .tc main_arg7) = _
  dsimp only [hostOps2]
  after_results_simp <;> rfl
theorem arg9 : V7 m ρ c main_arg9 = (W6 m ρ c (Proc.devRef .tc main_arg9)) := by
  show StableHlo.after hostOps2 (W6 m ρ c) (Proc.devRef .tc main_arg9) = _
  dsimp only [hostOps2]
  after_results_simp <;> rfl
theorem arg10 : V7 m ρ c main_arg10 = (W6 m ρ c (Proc.devRef .tc main_arg10)) := by
  show StableHlo.after hostOps2 (W6 m ρ c) (Proc.devRef .tc main_arg10) = _
  dsimp only [hostOps2]
  after_results_simp <;> rfl
theorem arg11 : V7 m ρ c main_arg11 = (W6 m ρ c (Proc.devRef .tc main_arg11)) := by
  show StableHlo.after hostOps2 (W6 m ρ c) (Proc.devRef .tc main_arg11) = _
  dsimp only [hostOps2]
  after_results_simp <;> rfl

end Cert.KernelIdeal.Read7

end
-- ==== Proof.KRead11.lean ====
/-
  The host lines between the third and the fourth pallas call, read from the contents the third call leaves: the column
  means and variances of its result and the second scale and shift, each as a [1, 128] row.
-/
import proofs.«155655_j678604832875_1_alg».proof.Proof.Gen.KernelIdeal.Frame
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.KernelIdeal.Read11

open Cert.KernelIdeal Cert.KernelIdeal.Gen Idealize.ShloMosaic.StableHlo

variable (m : (ℓ : Loc nD τ sig) → Buf (Elt Ideal) ℓ) (ρ : Dev nD → PrngReg) (c : Dev nD)
theorem v55 : V11 m ρ c main_v55 = Spec.rowOf (Spec.colMean (W8 m ρ c (Proc.devRef .tc main_v50))) := by
  show StableHlo.after hostOps3_2 (StableHlo.after hostOps3_1 (StableHlo.after hostOps3 (W8 m ρ c))) (Proc.devRef .tc main_v55) = _
  dsimp only [hostOps3, hostOps3_1, hostOps3_2]
  after_results_simp <;> rfl
theorem v56 : V11 m ρ c main_v56 = Spec.rowOf (Spec.colVar (W8 m ρ c (Proc.devRef .tc main_v50))) := by
  show StableHlo.after hostOps3_2 (StableHlo.after hostOps3_1 (StableHlo.after hostOps3 (W8 m ρ c))) (Proc.devRef .tc main_v56) = _
  dsimp only [hostOps3, hostOps3_1, hostOps3_2]
  after_results_simp <;> rfl
theorem v57 : V11 m ρ c main_v57 = Spec.rowOf (W8 m ρ c (Proc.devRef .tc main_arg10)) := by
  show StableHlo.after hostOps3_2 (StableHlo.after hostOps3_1 (StableHlo.after hostOps3 (W8 m ρ c))) (Proc.devRef .tc main_v57) = _
  dsimp only [hostOps3, hostOps3_1, hostOps3_2]
  after_results_simp <;> rfl
theorem v58 : V11 m ρ c main_v58 = Spec.rowOf (W8 m ρ c (Proc.devRef .tc main_arg11)) := by
  show StableHlo.after hostOps3_2 (StableHlo.after hostOps3_1 (StableHlo.after hostOps3 (W8 m ρ c))) (Proc.devRef .tc main_v58) = _
  dsimp only [hostOps3, hostOps3_1, hostOps3_2]
  after_results_simp <;> rfl
theorem v50 : V11 m ρ c main_v50 = (W8 m ρ c (Proc.devRef .tc main_v50)) := by
  show StableHlo.after hostOps3_2 (StableHlo.after hostOps3_1 (StableHlo.after hostOps3 (W8 m ρ c))) (Proc.devRef .tc main_v50) = _
  dsimp only [hostOps3, hostOps3_1, hostOps3_2]
  after_results_simp <;> rfl

end Cert.KernelIdeal.Read11

end
-- ==== Proof.KRun.lean ====
/-
  The idealized kernel's run, read: the result array is the network netK of the argument arrays.

  The four pallas calls are chained through the host lines between them.  Each call's result array is one function of the
  arrays it finds (the row-block modules); each host stretch is read from the contents the call before it leaves; the
  buffers a later line reads again (the edge table's rows, the reciprocal counts, the arguments) are written by nothing
  in between.  Substituting stage by stage gives netK of the launch contents.
-/
import proofs.«155655_j678604832875_1_alg».proof.Proof.Gen.KernelIdeal.Frame
import proofs.«155655_j678604832875_1_alg».proof.Proof.Spec
import proofs.«155655_j678604832875_1_alg».proof.Proof.Rows
import proofs.«155655_j678604832875_1_alg».proof.Proof.NetDefs
import proofs.«155655_j678604832875_1_alg».proof.Proof.Region0
import proofs.«155655_j678604832875_1_alg».proof.Proof.Region1
import proofs.«155655_j678604832875_1_alg».proof.Proof.Region2
import proofs.«155655_j678604832875_1_alg».proof.Proof.Region3
import proofs.«155655_j678604832875_1_alg».proof.Proof.KRead1
import proofs.«155655_j678604832875_1_alg».proof.Proof.KRead5
import proofs.«155655_j678604832875_1_alg».proof.Proof.KRead7
import proofs.«155655_j678604832875_1_alg».proof.Proof.KRead11
import Idealize.ShloMosaic.Lib.StableHlo.Run
import Idealize.ShloMosaic.PureOps.Ideal

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Run

open Cert.KernelIdeal Cert.KernelIdeal.Gen Idealize.ShloMosaic.StableHlo

local notation "𝕄" => MT nD τ sig Unit (Elt Ideal) ℕ (UR sig nD τ) ℕ

variable (m : (ℓ : Loc nD τ sig) → Buf (Elt Ideal) ℓ) (ρ : Dev nD → PrngReg) (c : Dev nD)

/-! ## Each call's result from what its windows' arrays hold -/

section
variable (V : (c : Dev nD) → (b : Ref sig .tc) → Buf (Elt Ideal) ((c : Thread nD τ).loc b))

theorem value0_of {A0 A1 : Spec.FArr Spec.S50000x100} {A2 A4 : Spec.FArr Spec.S100x128} {A3 : Spec.FArr Spec.S1x128}
    (h0 : V c main_v24 = A0) (h1 : V c main_arg0 = A1) (h2 : V c main_arg2 = A2) (h3 : V c main_v25 = A3) (h4 : V c main_arg4 = A4) :
    (dat0 V c).arrAt 5 cfg0.N = Rows.lin (n := 50000) (d := 100) (e := 128) A0 A1 A2 A4 A3 := by
  subst h0 h1 h2 h3 h4; exact Hand0.value V c

theorem value1_of {A0 : Spec.FArr Spec.S50000x128} {A1 A2 A3 A4 : Spec.FArr Spec.S1x128}
    (h0 : V c main_v26 = A0) (h1 : V c main_v31 = A1) (h2 : V c main_v32 = A2) (h3 : V c main_v33 = A3) (h4 : V c main_v34 = A4) :
    (dat1 V c).arrAt 5 cfg1.N = Rows.normRelu (n := 50000) (e := 128) A0 A1 A2 A3 A4 := by
  subst h0 h1 h2 h3 h4; exact Hand1.value V c

theorem value2_of {A0 A1 : Spec.FArr Spec.S50000x128} {A2 A4 : Spec.FArr Spec.S128x128} {A3 : Spec.FArr Spec.S1x128}
    (h0 : V c main_v48 = A0) (h1 : V c main_v35 = A1) (h2 : V c main_arg7 = A2) (h3 : V c main_v49 = A3) (h4 : V c main_arg9 = A4) :
    (dat2 V c).arrAt 5 cfg2.N = Rows.lin (n := 50000) (d := 128) (e := 128) A0 A1 A2 A4 A3 := by
  subst h0 h1 h2 h3 h4; exact Hand2.value V c

theorem value3_of {A0 : Spec.FArr Spec.S50000x128} {A1 A2 A3 A4 : Spec.FArr Spec.S1x128}
    (h0 : V c main_v50 = A0) (h1 : V c main_v55 = A1) (h2 : V c main_v56 = A2) (h3 : V c main_v57 = A3) (h4 : V c main_v58 = A4) :
    (dat3 V c).arrAt 5 cfg3.N = Rows.norm (n := 50000) (e := 128) A0 A1 A2 A3 A4 := by
  subst h0 h1 h2 h3 h4; exact Hand3.value V c
end

/-! ## The stages -/

/-- The first layer's linear part, its normalised and rectified form, the second layer's linear part. -/
abbrev H0 : Spec.FArr Spec.S50000x128 := Net.linK100 (m ((c : Thread nD τ).loc main_arg0)) (m ((c : Thread nD τ).loc main_arg1)) (m ((c : Thread nD τ).loc main_arg2)) (m ((c : Thread nD τ).loc main_arg3)) (m ((c : Thread nD τ).loc main_arg4))
abbrev H1 : Spec.FArr Spec.S50000x128 := Net.normReluK (H0 m c) (m ((c : Thread nD τ).loc main_arg5)) (m ((c : Thread nD τ).loc main_arg6))
abbrev H2 : Spec.FArr Spec.S50000x128 := Net.linK128 (H1 m c) (m ((c : Thread nD τ).loc main_arg1)) (m ((c : Thread nD τ).loc main_arg7)) (m ((c : Thread nD τ).loc main_arg8)) (m ((c : Thread nD τ).loc main_arg9))

/-! ### After the first call -/

theorem W2_v26 : W2 m ρ c (Proc.devRef .tc main_v26) = H0 m c :=
  (W2_arr m ρ c 5).trans (value0_of c (V1 m ρ) (Read1.v24 m ρ c) (Read1.arg0 m ρ c) (Read1.arg2 m ρ c) (Read1.v25 m ρ c) (Read1.arg4 m ρ c))
theorem W2_v1 : W2 m ρ c (Proc.devRef .tc main_v1) = Spec.srcRow (m ((c : Thread nD τ).loc main_arg1)) :=
  (W2_of_ne m ρ c main_v1 (by decide)).trans (Read1.v1 m ρ c)
theorem W2_v3 : W2 m ρ c (Proc.devRef .tc main_v3) = Spec.dstRow (m ((c : Thread nD τ).loc main_arg1)) :=
  (W2_of_ne m ρ c main_v3 (by decide)).trans (Read1.v3 m ρ c)
theorem W2_v11 : W2 m ρ c (Proc.devRef .tc main_v11) = Spec.invCnt (m ((c : Thread nD τ).loc main_arg1)) :=
  (W2_of_ne m ρ c main_v11 (by decide)).trans (Read1.v11 m ρ c)
theorem W2_arg5 : W2 m ρ c (Proc.devRef .tc main_arg5) = (m ((c : Thread nD τ).loc main_arg5)) :=
  (W2_of_ne m ρ c main_arg5 (by decide)).trans (Read1.arg5 m ρ c)
theorem W2_arg6 : W2 m ρ c (Proc.devRef .tc main_arg6) = (m ((c : Thread nD τ).loc main_arg6)) :=
  (W2_of_ne m ρ c main_arg6 (by decide)).trans (Read1.arg6 m ρ c)
theorem W2_arg7 : W2 m ρ c (Proc.devRef .tc main_arg7) = (m ((c : Thread nD τ).loc main_arg7)) :=
  (W2_of_ne m ρ c main_arg7 (by decide)).trans (Read1.arg7 m ρ c)
theorem W2_arg8 : W2 m ρ c (Proc.devRef .tc main_arg8) = (m ((c : Thread nD τ).loc main_arg8)) :=
  (W2_of_ne m ρ c main_arg8 (by decide)).trans (Read1.arg8 m ρ c)
theorem W2_arg9 : W2 m ρ c (Proc.devRef .tc main_arg9) = (m ((c : Thread nD τ).loc main_arg9)) :=
  (W2_of_ne m ρ c main_arg9 (by decide)).trans (Read1.arg9 m ρ c)
theorem W2_arg10 : W2 m ρ c (Proc.devRef .tc main_arg10) = (m ((c : Thread nD τ).loc main_arg10)) :=
  (W2_of_ne m ρ c main_arg10 (by decide)).trans (Read1.arg10 m ρ c)
theorem W2_arg11 : W2 m ρ c (Proc.devRef .tc main_arg11) = (m ((c : Thread nD τ).loc main_arg11)) :=
  (W2_of_ne m ρ c main_arg11 (by decide)).trans (Read1.arg11 m ρ c)

/-! ### After the second call -/

theorem W6_v35 : W6 m ρ c (Proc.devRef .tc main_v35) = H1 m c :=
  (W6_arr m ρ c 5).trans (value1_of c (V5 m ρ)
    ((Read5.v26 m ρ c).trans (W2_v26 m ρ c))
    ((Read5.v31 m ρ c).trans (congrArg (fun z => Spec.rowOf (Spec.colMean z)) (W2_v26 m ρ c)))
    ((Read5.v32 m ρ c).trans (congrArg (fun z => Spec.rowOf (Spec.colVar z)) (W2_v26 m ρ c)))
    ((Read5.v33 m ρ c).trans (congrArg Spec.rowOf (W2_arg5 m ρ c)))
    ((Read5.v34 m ρ c).trans (congrArg Spec.rowOf (W2_arg6 m ρ c))))
theorem W6_v1 : W6 m ρ c (Proc.devRef .tc main_v1) = Spec.srcRow (m ((c : Thread nD τ).loc main_arg1)) :=
  (W6_of_ne m ρ c main_v1 (by decide)).trans ((Read5.v1 m ρ c).trans (W2_v1 m ρ c))
theorem W6_v3 : W6 m ρ c (Proc.devRef .tc main_v3) = Spec.dstRow (m ((c : Thread nD τ).loc main_arg1)) :=
  (W6_of_ne m ρ c main_v3 (by decide)).trans ((Read5.v3 m ρ c).trans (W2_v3 m ρ c))
theorem W6_v11 : W6 m ρ c (Proc.devRef .tc main_v11) = Spec.invCnt (m ((c : Thread nD τ).loc main_arg1)) :=
  (W6_of_ne m ρ c main_v11 (by decide)).trans ((Read5.v11 m ρ c).trans (W2_v11 m ρ c))
theorem W6_arg7 : W6 m ρ c (Proc.devRef .tc main_arg7) = (m ((c : Thread nD τ).loc main_arg7)) :=
  (W6_of_ne m ρ c main_arg7 (by decide)).trans ((Read5.arg7 m ρ c).trans (W2_arg7 m ρ c))
theorem W6_arg8 : W6 m ρ c (Proc.devRef .tc main_arg8) = (m ((c : Thread nD τ).loc main_arg8)) :=
  (W6_of_ne m ρ c main_arg8 (by decide)).trans ((Read5.arg8 m ρ c).trans (W2_arg8 m ρ c))
theorem W6_arg9 : W6 m ρ c (Proc.devRef .tc main_arg9) = (m ((c : Thread nD τ).loc main_arg9)) :=
  (W6_of_ne m ρ c main_arg9 (by decide)).trans ((Read5.arg9 m ρ c).trans (W2_arg9 m ρ c))
theorem W6_arg10 : W6 m ρ c (Proc.devRef .tc main_arg10) = (m ((c : Thread nD τ).loc main_arg10)) :=
  (W6_of_ne m ρ c main_arg10 (by decide)).trans ((Read5.arg10 m ρ c).trans (W2_arg10 m ρ c))
theorem W6_arg11 : W6 m ρ c (Proc.devRef .tc main_arg11) = (m ((c : Thread nD τ).loc main_arg11)) :=
  (W6_of_ne m ρ c main_arg11 (by decide)).trans ((Read5.arg11 m ρ c).trans (W2_arg11 m ρ c))

/-! ### After the third call -/

/-- The neighbourhood mean the third call finds, from what the edge rows, the reciprocal counts and the features hold. -/
theorem v48_of {S1 S3 : Spec.IArr Spec.S800000} {I : Spec.FArr Spec.S50000} {H : Spec.FArr Spec.S50000x128}
    (h1 : W6 m ρ c (Proc.devRef .tc main_v1) = S1) (h3 : W6 m ρ c (Proc.devRef .tc main_v3) = S3)
    (h11 : W6 m ρ c (Proc.devRef .tc main_v11) = I) (h35 : W6 m ρ c (Proc.devRef .tc main_v35) = H) :
    V7 m ρ c main_v48 =
      mulf (Host.scatterAdd Spec.scatter128 (broadcastInDim Spec.S50000x128 ![] Spec.bc_S50000x128 (constant (F := Ideal) Spec.S_ FTy.f32 0#32))
          (broadcastInDim Spec.S800000x1 ![0] Spec.bc_col S3)
          (Host.gather Spec.gather128 H
            (broadcastInDim Spec.S800000x1 ![0] Spec.bc_col
              (select (cmpi CmpIPredicate.slt S1 (broadcastInDim Spec.S800000 ![] Spec.bc_S800000 (constantI Spec.S_ 32 0#32)))
                (addi S1 (broadcastInDim Spec.S800000 ![] Spec.bc_S800000 (constantI Spec.S_ 32 50000#32))) S1))))
        (broadcastInDim Spec.S50000x128 ![0, 1] Spec.bc_node128 (broadcastInDim Spec.S50000x1 ![0] Spec.bc_nodeCol I)) := by
  subst h1 h3 h11 h35; exact Read7.v48 m ρ c

theorem V7_v48 : V7 m ρ c main_v48 = Spec.meanMul128 (H1 m c) (m ((c : Thread nD τ).loc main_arg1)) :=
  v48_of m ρ c (W6_v1 m ρ c) (W6_v3 m ρ c) (W6_v11 m ρ c) (W6_v35 m ρ c)

theorem W8_v50 : W8 m ρ c (Proc.devRef .tc main_v50) = H2 m c :=
  (W8_arr m ρ c 5).trans (value2_of c (V7 m ρ)
    (V7_v48 m ρ c)
    ((Read7.v35 m ρ c).trans (W6_v35 m ρ c))
    ((Read7.arg7 m ρ c).trans (W6_arg7 m ρ c))
    ((Read7.v49 m ρ c).trans (congrArg Spec.rowOf (W6_arg8 m ρ c)))
    ((Read7.arg9 m ρ c).trans (W6_arg9 m ρ c)))
theorem W8_arg10 : W8 m ρ c (Proc.devRef .tc main_arg10) = (m ((c : Thread nD τ).loc main_arg10)) :=
  (W8_of_ne m ρ c main_arg10 (by decide)).trans ((Read7.arg10 m ρ c).trans (W6_arg10 m ρ c))
theorem W8_arg11 : W8 m ρ c (Proc.devRef .tc main_arg11) = (m ((c : Thread nD τ).loc main_arg11)) :=
  (W8_of_ne m ρ c main_arg11 (by decide)).trans ((Read7.arg11 m ρ c).trans (W6_arg11 m ρ c))

/-! ### After the fourth call -/

/-- The result array ends at the network of the launch contents. -/
theorem out_eq : W12 m ρ c (Proc.devRef .tc main_v59)
    = Net.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W12_arr m ρ c 5).trans (value3_of c (V11 m ρ)
    ((Read11.v50 m ρ c).trans (W8_v50 m ρ c))
    ((Read11.v55 m ρ c).trans (congrArg (fun z => Spec.rowOf (Spec.colMean z)) (W8_v50 m ρ c)))
    ((Read11.v56 m ρ c).trans (congrArg (fun z => Spec.rowOf (Spec.colVar z)) (W8_v50 m ρ c)))
    ((Read11.v57 m ρ c).trans (congrArg Spec.rowOf (W8_arg10 m ρ c)))
    ((Read11.v58 m ρ c).trans (congrArg Spec.rowOf (W8_arg11 m ρ c))))

/-! ## The run -/

set_option backward.isDefEq.respectTransparency.types false in
/-- Every weakly fair execution of @main terminates, nothing faulting, with the result array at the network of the argument
    arrays and the argument arrays as launched. -/
theorem run : θ_run defs (onTc (τ := τ) (main (F := Ideal))) ⟨m, fun _ => 0, ρ⟩ (fun r => ∀ c : Dev nD,
      r.2.mem ((c.tc : Thread nD τ).loc main_v59) = Net.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v59 (by decide))).trans (out_eq m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Run

end
-- ==== Proof.LibHostLine.lean ====
/-
  Two facts about straight lines of host operations.

  Running two stretches of operations one after the other is running the second from where the first ends; so a long line can
  be read in parts, each from contents one does not look inside. And a dynamic slice of a rank-1 array has one start: whatever
  function of the one axis supplies it, only its value on that axis matters. (The second is what lets a start that a program
  looks up through a one-entry list of operands, under a binder, be replaced by the operand itself.) Library imports only.
-/
import Idealize.ShloMosaic.Lib.StableHlo.Run

noncomputable section

namespace Cert.LibHostLine

open Idealize.ShloMosaic

/-- The fold of the operations' results over an appended list is the fold over the second part from the first part's end. -/
theorem after_append {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => simp only [List.cons_append, StableHlo.after_cons, ih]

/-- A slice of a rank-1 array takes one start: a start function on the one axis is its value there. -/
theorem dynSlice_one {α : Type} {d : Fin 1 → Nat} (t : Shape) (x : (⟨1, d⟩ : Shape).Idx → α)
    (start : Fin 1 → Int) (h : (⟨1, d⟩ : Shape).Slices (fun _ => 0) t) :
    Host.dynamicSlice t x start h = Host.dynamicSlice t x (fun _ => start 0) h :=
  congrArg (fun st => Host.dynamicSlice t x st h) (funext fun k => by rw [Subsingleton.elim k (0 : Fin 1)])

end Cert.LibHostLine

end
-- ==== Proof.RStageA1.lean ====
/-
  The reference's first stretch: the neighbourhood mean of the input features (sum divided by count) sent through the
  first layer's two matrices, with the bias: a . wl + b + x . wr.
-/
import proofs.«155655_j678604832875_1_alg».proof.Proof.Gen.ReferenceIdeal
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.ReferenceIdeal.StageA1

open Cert.ReferenceIdeal Cert.ReferenceIdeal.Gen Idealize.ShloMosaic.StableHlo

section
variable {F : FTy → Type} [FloatOps F]

/-- The stretch's 35 operations, in order (a called function's operations at its call). -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.nullary main_cst (constant S_ .f32 0x00000000#32),
    StableHlo.unary main_cst main_v11 (broadcastInDim S50000x100 ![] bcast_S_S50000x100 : (⟨S_, .f32⟩ : BufTy).Contents (Elt F) → (⟨S50000x100, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x100 ![0, 1] bcast_S50000x1_S50000x100_0_1 : (⟨S50000x1, .f32⟩ : BufTy).Contents (Elt F) → (⟨S50000x100, .f32⟩ : BufTy).Contents (Elt F)),
    StableHlo.binary main_v13 main_v21 main_v22 (Host.divf : (⟨S50000x100, .f32⟩ : BufTy).Contents (Elt F) → (⟨S50000x100, .f32⟩ : BufTy).Contents (Elt F) → (⟨S50000x100, .f32⟩ : BufTy).Contents (Elt F)),
    StableHlo.binary main_v22 main_arg2 main_v23 ((fun l r => Host.dotGeneral dot_S50000x100_S100x128_S50000x128_1_0_0_1_n_n none l r) : (⟨S50000x100, .f32⟩ : BufTy).Contents (Elt F) → (⟨S100x128, .f32⟩ : BufTy).Contents (Elt F) → (⟨S50000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.binary main_arg0 main_arg4 main_v27 ((fun l r => Host.dotGeneral dot_S50000x100_S100x128_S50000x128_1_0_0_1_n_n none l r) : (⟨S50000x100, .f32⟩ : BufTy).Contents (Elt F) → (⟨S100x128, .f32⟩ : BufTy).Contents (Elt F) → (⟨S50000x128, .f32⟩ : BufTy).Contents (Elt F)),
    StableHlo.binary main_v26 main_v27 main_v28 (addf : (⟨S50000x128, .f32⟩ : BufTy).Contents (Elt F) → (⟨S50000x128, .f32⟩ : BufTy).Contents (Elt F) → (⟨S50000x128, .f32⟩ : BufTy).Contents (Elt F)) ]

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
end

variable (V : Valuation τ sig (Elt Ideal))

/-- What the stretch leaves in its result buffer, from any contents it starts at. -/
theorem value : after (ops (F := Ideal)) V (Proc.devRef .tc main_v28) = Spec.linHost100 (Spec.meanDiv100 (V (Proc.devRef .tc main_arg0)) (V (Proc.devRef .tc main_arg1))) (V (Proc.devRef .tc main_arg0)) (V (Proc.devRef .tc main_arg2)) (V (Proc.devRef .tc main_arg3)) (V (Proc.devRef .tc main_arg4)) := by
  dsimp only [ops]
  after_results_simp <;> rfl

/-- The stretch writes no argument. -/
theorem arg0 : after (ops (F := Ideal)) V (Proc.devRef .tc main_arg0) = V (Proc.devRef .tc main_arg0) := by
  dsimp only [ops]
  after_results_simp
theorem arg1 : after (ops (F := Ideal)) V (Proc.devRef .tc main_arg1) = V (Proc.devRef .tc main_arg1) := by
  dsimp only [ops]
  after_results_simp
theorem arg2 : after (ops (F := Ideal)) V (Proc.devRef .tc main_arg2) = V (Proc.devRef .tc main_arg2) := by
  dsimp only [ops]
  after_results_simp
theorem arg3 : after (ops (F := Ideal)) V (Proc.devRef .tc main_arg3) = V (Proc.devRef .tc main_arg3) := by
  dsimp only [ops]
  after_results_simp
theorem arg4 : after (ops (F := Ideal)) V (Proc.devRef .tc main_arg4) = V (Proc.devRef .tc main_arg4) := by
  dsimp only [ops]
  after_results_simp
theorem arg5 : after (ops (F := Ideal)) V (Proc.devRef .tc main_arg5) = V (Proc.devRef .tc main_arg5) := by
  dsimp only [ops]
  after_results_simp
theorem arg6 : after (ops (F := Ideal)) V (Proc.devRef .tc main_arg6) = V (Proc.devRef .tc main_arg6) := by
  dsimp only [ops]
  after_results_simp
theorem arg7 : after (ops (F := Ideal)) V (Proc.devRef .tc main_arg7) = V (Proc.devRef .tc main_arg7) := by
  dsimp only [ops]
  after_results_simp
theorem arg8 : after (ops (F := Ideal)) V (Proc.devRef .tc main_arg8) = V (Proc.devRef .tc main_arg8) := by
  dsimp only [ops]
  after_results_simp
theorem arg9 : after (ops (F := Ideal)) V (Proc.devRef .tc main_arg9) = V (Proc.devRef .tc main_arg9) := by
  dsimp only [ops]
  after_results_simp
theorem arg10 : after (ops (F := Ideal)) V (Proc.devRef .tc main_arg10) = V (Proc.devRef .tc main_arg10) := by
  dsimp only [ops]
  after_results_simp
theorem arg11 : after (ops (F := Ideal)) V (Proc.devRef .tc main_arg11) = V (Proc.devRef .tc main_arg11) := by
  dsimp only [ops]
  after_results_simp

end Cert.ReferenceIdeal.StageA1

end
-- ==== Proof.RStageA2.lean ====
/-
  The reference's second stretch: the first layer's column statistics (the variance through its called function), the
  normalisation dividing by the square root, and max (., 0).
-/
import proofs.«155655_j678604832875_1_alg».proof.Proof.Gen.ReferenceIdeal
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.ReferenceIdeal.StageA2

open Cert.ReferenceIdeal Cert.ReferenceIdeal.Gen Idealize.ShloMosaic.StableHlo

section
variable {F : FTy → Type} [FloatOps F]

/-- The stretch's 47 operations, in order (a called function's operations at its call). -/
abbrev ops : List (HloOp τ sig (Elt F)) :=
  [ StableHlo.nullary main_cst_4 (constant S_ .f32 0x00000000#32),
    StableHlo.binary main_v28 main_cst_4 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (.of main_v28 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v28 : StableHlo.TRef sig ⟨S50000x128, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v31 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v34 main_v35 (subf : (⟨S50000x128, .f32⟩ : BufTy).Contents (Elt F) → (⟨S50000x128, .f32⟩ : BufTy).Contents (Elt F) → (⟨S50000x128, .f32⟩ : BufTy).Contents (Elt F)),
    StableHlo.unary main_arg5 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v35 main_v38 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v39 (broadcastInDim S128 ![] bcast_S_S128 : (⟨S_, .f32⟩ : BufTy).Contents (Elt F) → (⟨S128, .f32⟩ : BufTy).Contents (Elt F)),
    StableHlo.binary main_v32 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.sqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (Host.divf : (⟨S50000x128, .f32⟩ : BufTy).Contents (Elt F) → (⟨S50000x128, .f32⟩ : BufTy).Contents (Elt F) → (⟨S50000x128, .f32⟩ : BufTy).Contents (Elt F)),
    StableHlo.unary main_arg6 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v47 : StableHlo.TRef sig ⟨S50000x128, .f32⟩) main_call1.v0 main_call1.v1 maximumf ]

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
end

variable (V : Valuation τ sig (Elt Ideal))

/-- What the stretch leaves in its result buffer, from any contents it starts at. -/
theorem value : after (ops (F := Ideal)) V (Proc.devRef .tc main_v48) = Spec.reluHost (Spec.normHost (V (Proc.devRef .tc main_v28)) (V (Proc.devRef .tc main_arg5)) (V (Proc.devRef .tc main_arg6))) := by
  dsimp only [ops]
  after_results_simp <;> rfl

/-- The stretch writes no argument. -/
theorem arg0 : after (ops (F := Ideal)) V (Proc.devRef .tc main_arg0) = V (Proc.devRef .tc main_arg0) := by
  dsimp only [ops]
  after_results_simp
theorem arg1 : after (ops (F := Ideal)) V (Proc.devRef .tc main_arg1) = V (Proc.devRef .tc main_arg1) := by
  dsimp only [ops]
  after_results_simp
theorem arg2 : after (ops (F := Ideal)) V (Proc.devRef .tc main_arg2) = V (Proc.devRef .tc main_arg2) := by
  dsimp only [ops]
  after_results_simp
theorem arg3 : after (ops (F := Ideal)) V (Proc.devRef .tc main_arg3) = V (Proc.devRef .tc main_arg3) := by
  dsimp only [ops]
  after_results_simp
theorem arg4 : after (ops (F := Ideal)) V (Proc.devRef .tc main_arg4) = V (Proc.devRef .tc main_arg4) := by
  dsimp only [ops]
  after_results_simp
theorem arg5 : after (ops (F := Ideal)) V (Proc.devRef .tc main_arg5) = V (Proc.devRef .tc main_arg5) := by
  dsimp only [ops]
  after_results_simp
theorem arg6 : after (ops (F := Ideal)) V (Proc.devRef .tc main_arg6) = V (Proc.devRef .tc main_arg6) := by
  dsimp only [ops]
  after_results_simp
theorem arg7 : after (ops (F := Ideal)) V (Proc.devRef .tc main_arg7) = V (Proc.devRef .tc main_arg7) := by
  dsimp only [ops]
  after_results_simp
theorem arg8 : after (ops (F := Ideal)) V (Proc.devRef .tc main_arg8) = V (Proc.devRef .tc main_arg8) := by
  dsimp only [ops]
  after_results_simp
theorem arg9 : after (ops (F := Ideal)) V (Proc.devRef .tc main_arg9) = V (Proc.devRef .tc main_arg9) := by
  dsimp only [ops]
  after_results_simp
theorem arg10 : after (ops (F := Ideal)) V (Proc.devRef .tc main_arg10) = V (Proc.devRef .tc main_arg10) := by
  dsimp only [ops]
  after_results_simp
theorem arg11 : after (ops (F := Ideal)) V (Proc.devRef .tc main_arg11) = V (Proc.devRef .tc main_arg11) := by
  dsimp only [ops]
  after_results_simp

end Cert.ReferenceIdeal.StageA2

end
-- ==== Proof.RStageB1.lean ====
/-
  The reference's third stretch: the neighbourhood mean of the first layer's output (sum divided by count) sent
  through the second layer's two matrices, with the bias.
-/
import proofs.«155655_j678604832875_1_alg».proof.Proof.Gen.ReferenceIdeal
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.ReferenceIdeal.StageB1

open Cert.ReferenceIdeal Cert.ReferenceIdeal.Gen Idealize.ShloMosaic.StableHlo

section
variable {F : FTy → Type} [FloatOps F]

/-- The stretch's 35 operations, in order (a called function's operations at its call). -/
abbrev ops : List (HloOp τ sig (Elt F)) :=
  [ StableHlo.unary main_arg1 main_v49 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v49 main_v50 rfl shapeCasts_S1x800000_S800000,
    StableHlo.unary main_arg1 main_v51 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v51 main_v52 rfl shapeCasts_S1x800000_S800000,
    StableHlo.nullary main_c_8 (constantI S_ 32 0#32),
    StableHlo.unary main_c_8 main_v53 (broadcastInDim S800000 ![] bcast_S_S800000 : (⟨S_, .i32⟩ : BufTy).Contents (Elt F) → (⟨S800000, .i32⟩ : BufTy).Contents (Elt F)),
    StableHlo.binary main_v50 main_v53 main_v54 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v55 (broadcastInDim S800000 ![] bcast_S_S800000 : (⟨S_, .i32⟩ : BufTy).Contents (Elt F) → (⟨S800000, .i32⟩ : BufTy).Contents (Elt F)),
    StableHlo.binary main_v50 main_v55 main_v56 (addi : (⟨S800000, .i32⟩ : BufTy).Contents (Elt F) → (⟨S800000, .i32⟩ : BufTy).Contents (Elt F) → (⟨S800000, .i32⟩ : BufTy).Contents (Elt F)),
    StableHlo.ternary main_v54 main_v56 main_v50 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v57 main_v58 (broadcastInDim S800000x1 ![0] bcast_S800000_S800000x1_0 : (⟨S800000, .i32⟩ : BufTy).Contents (Elt F) → (⟨S800000x1, .i32⟩ : BufTy).Contents (Elt F)),
    StableHlo.binary main_v48 main_v58 main_v59 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v60 (broadcastInDim S50000x128 ![] bcast_S_S50000x128 : (⟨S_, .f32⟩ : BufTy).Contents (Elt F) → (⟨S50000x128, .f32⟩ : BufTy).Contents (Elt F)),
    StableHlo.unary main_v52 main_v61 (broadcastInDim S800000x1 ![0] bcast_S800000_S800000x1_0 : (⟨S800000, .i32⟩ : BufTy).Contents (Elt F) → (⟨S800000x1, .i32⟩ : BufTy).Contents (Elt F)),
    StableHlo.ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_11 (constant S_ .f32 0x3F800000#32),
    StableHlo.unary main_cst_11 main_v63 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v64 (broadcastInDim S50000 ![] bcast_S_S50000 : (⟨S_, .f32⟩ : BufTy).Contents (Elt F) → (⟨S50000, .f32⟩ : BufTy).Contents (Elt F)),
    StableHlo.unary main_v52 main_v65 (broadcastInDim S800000x1 ![0] bcast_S800000_S800000x1_0 : (⟨S800000, .i32⟩ : BufTy).Contents (Elt F) → (⟨S800000x1, .i32⟩ : BufTy).Contents (Elt F)),
    StableHlo.ternary main_v64 main_v65 main_v63 main_v66 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.unary main_cst_13 main_v67 (broadcastInDim S50000 ![] bcast_S_S50000 : (⟨S_, .f32⟩ : BufTy).Contents (Elt F) → (⟨S50000, .f32⟩ : BufTy).Contents (Elt F)),
    StableHlo.binary main_v66 main_v67 main_v68 (maximumf : (⟨S50000, .f32⟩ : BufTy).Contents (Elt F) → (⟨S50000, .f32⟩ : BufTy).Contents (Elt F) → (⟨S50000, .f32⟩ : BufTy).Contents (Elt F)),
    StableHlo.unary main_v68 main_v69 (broadcastInDim S50000x1 ![0] bcast_S50000_S50000x1_0 : (⟨S50000, .f32⟩ : BufTy).Contents (Elt F) → (⟨S50000x1, .f32⟩ : BufTy).Contents (Elt F)),
    StableHlo.unary main_v69 main_v70 (broadcastInDim S50000x128 ![0, 1] bcast_S50000x1_S50000x128_0_1 : (⟨S50000x1, .f32⟩ : BufTy).Contents (Elt F) → (⟨S50000x128, .f32⟩ : BufTy).Contents (Elt F)),
    StableHlo.binary main_v62 main_v70 main_v71 (Host.divf : (⟨S50000x128, .f32⟩ : BufTy).Contents (Elt F) → (⟨S50000x128, .f32⟩ : BufTy).Contents (Elt F) → (⟨S50000x128, .f32⟩ : BufTy).Contents (Elt F)),
    StableHlo.binary main_v71 main_arg7 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v74 main_v75 (addf : (⟨S50000x128, .f32⟩ : BufTy).Contents (Elt F) → (⟨S50000x128, .f32⟩ : BufTy).Contents (Elt F) → (⟨S50000x128, .f32⟩ : BufTy).Contents (Elt F)),
    StableHlo.binary main_v48 main_arg9 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v75 main_v76 main_v77 (addf : (⟨S50000x128, .f32⟩ : BufTy).Contents (Elt F) → (⟨S50000x128, .f32⟩ : BufTy).Contents (Elt F) → (⟨S50000x128, .f32⟩ : BufTy).Contents (Elt F)) ]

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
end

variable (V : Valuation τ sig (Elt Ideal))

/-- What the stretch leaves in its result buffer, from any contents it starts at. -/
theorem value : after (ops (F := Ideal)) V (Proc.devRef .tc main_v77) = Spec.linHost128 (Spec.meanDiv128 (V (Proc.devRef .tc main_v48)) (V (Proc.devRef .tc main_arg1))) (V (Proc.devRef .tc main_v48)) (V (Proc.devRef .tc main_arg7)) (V (Proc.devRef .tc main_arg8)) (V (Proc.devRef .tc main_arg9)) := by
  dsimp only [ops]
  after_results_simp <;> rfl

/-- The stretch writes no argument. -/
theorem arg0 : after (ops (F := Ideal)) V (Proc.devRef .tc main_arg0) = V (Proc.devRef .tc main_arg0) := by
  dsimp only [ops]
  after_results_simp
theorem arg1 : after (ops (F := Ideal)) V (Proc.devRef .tc main_arg1) = V (Proc.devRef .tc main_arg1) := by
  dsimp only [ops]
  after_results_simp
theorem arg2 : after (ops (F := Ideal)) V (Proc.devRef .tc main_arg2) = V (Proc.devRef .tc main_arg2) := by
  dsimp only [ops]
  after_results_simp
theorem arg3 : after (ops (F := Ideal)) V (Proc.devRef .tc main_arg3) = V (Proc.devRef .tc main_arg3) := by
  dsimp only [ops]
  after_results_simp
theorem arg4 : after (ops (F := Ideal)) V (Proc.devRef .tc main_arg4) = V (Proc.devRef .tc main_arg4) := by
  dsimp only [ops]
  after_results_simp
theorem arg5 : after (ops (F := Ideal)) V (Proc.devRef .tc main_arg5) = V (Proc.devRef .tc main_arg5) := by
  dsimp only [ops]
  after_results_simp
theorem arg6 : after (ops (F := Ideal)) V (Proc.devRef .tc main_arg6) = V (Proc.devRef .tc main_arg6) := by
  dsimp only [ops]
  after_results_simp
theorem arg7 : after (ops (F := Ideal)) V (Proc.devRef .tc main_arg7) = V (Proc.devRef .tc main_arg7) := by
  dsimp only [ops]
  after_results_simp
theorem arg8 : after (ops (F := Ideal)) V (Proc.devRef .tc main_arg8) = V (Proc.devRef .tc main_arg8) := by
  dsimp only [ops]
  after_results_simp
theorem arg9 : after (ops (F := Ideal)) V (Proc.devRef .tc main_arg9) = V (Proc.devRef .tc main_arg9) := by
  dsimp only [ops]
  after_results_simp
theorem arg10 : after (ops (F := Ideal)) V (Proc.devRef .tc main_arg10) = V (Proc.devRef .tc main_arg10) := by
  dsimp only [ops]
  after_results_simp
theorem arg11 : after (ops (F := Ideal)) V (Proc.devRef .tc main_arg11) = V (Proc.devRef .tc main_arg11) := by
  dsimp only [ops]
  after_results_simp

end Cert.ReferenceIdeal.StageB1

end
-- ==== Proof.RStageB2.lean ====
/-
  The reference's last stretch: the second layer's column statistics and the normalisation dividing by the square root.
-/
import proofs.«155655_j678604832875_1_alg».proof.Proof.Gen.ReferenceIdeal
import proofs.«155655_j678604832875_1_alg».proof.Proof.Spec

import Idealize.ShloMosaic.Lib.StableHlo.Run
import Idealize.ShloMosaic.PureOps.Ideal

noncomputable section

open Idealize.ShloMosaic Idealize.ShloMosaic.TcCoe Idealize.SL.Sem

namespace Cert.ReferenceIdeal.StageB2

open Cert.ReferenceIdeal Cert.ReferenceIdeal.Gen Idealize.ShloMosaic.StableHlo

section
variable {F : FTy → Type} [FloatOps F]

/-- The stretch's 44 operations, in order (a called function's operations at its call). -/
abbrev ops : List (HloOp τ sig (Elt F)) :=
  [ StableHlo.nullary main_cst_14 (constant S_ .f32 0x00000000#32),
    StableHlo.binary main_v77 main_cst_14 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v77 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v77 : StableHlo.TRef sig ⟨S50000x128, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v83 main_v84 (subf : (⟨S50000x128, .f32⟩ : BufTy).Contents (Elt F) → (⟨S50000x128, .f32⟩ : BufTy).Contents (Elt F) → (⟨S50000x128, .f32⟩ : BufTy).Contents (Elt F)),
    StableHlo.unary main_arg10 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v84 main_v87 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v88 (broadcastInDim S128 ![] bcast_S_S128 : (⟨S_, .f32⟩ : BufTy).Contents (Elt F) → (⟨S128, .f32⟩ : BufTy).Contents (Elt F)),
    StableHlo.binary main_v81 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.sqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v92 main_v93 (Host.divf : (⟨S50000x128, .f32⟩ : BufTy).Contents (Elt F) → (⟨S50000x128, .f32⟩ : BufTy).Contents (Elt F) → (⟨S50000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)) ]

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
end

variable (V : Valuation τ sig (Elt Ideal))

/-- What the stretch leaves in its result buffer, from any contents it starts at. -/
theorem value : after (ops (F := Ideal)) V (Proc.devRef .tc main_v96) = Spec.normHost (V (Proc.devRef .tc main_v77)) (V (Proc.devRef .tc main_arg10)) (V (Proc.devRef .tc main_arg11)) := by
  dsimp only [ops]
  after_results_simp <;> rfl

/-- The stretch writes no argument. -/
theorem arg0 : after (ops (F := Ideal)) V (Proc.devRef .tc main_arg0) = V (Proc.devRef .tc main_arg0) := by
  dsimp only [ops]
  after_results_simp
theorem arg1 : after (ops (F := Ideal)) V (Proc.devRef .tc main_arg1) = V (Proc.devRef .tc main_arg1) := by
  dsimp only [ops]
  after_results_simp
theorem arg2 : after (ops (F := Ideal)) V (Proc.devRef .tc main_arg2) = V (Proc.devRef .tc main_arg2) := by
  dsimp only [ops]
  after_results_simp
theorem arg3 : after (ops (F := Ideal)) V (Proc.devRef .tc main_arg3) = V (Proc.devRef .tc main_arg3) := by
  dsimp only [ops]
  after_results_simp
theorem arg4 : after (ops (F := Ideal)) V (Proc.devRef .tc main_arg4) = V (Proc.devRef .tc main_arg4) := by
  dsimp only [ops]
  after_results_simp
theorem arg5 : after (ops (F := Ideal)) V (Proc.devRef .tc main_arg5) = V (Proc.devRef .tc main_arg5) := by
  dsimp only [ops]
  after_results_simp
theorem arg6 : after (ops (F := Ideal)) V (Proc.devRef .tc main_arg6) = V (Proc.devRef .tc main_arg6) := by
  dsimp only [ops]
  after_results_simp
theorem arg7 : after (ops (F := Ideal)) V (Proc.devRef .tc main_arg7) = V (Proc.devRef .tc main_arg7) := by
  dsimp only [ops]
  after_results_simp
theorem arg8 : after (ops (F := Ideal)) V (Proc.devRef .tc main_arg8) = V (Proc.devRef .tc main_arg8) := by
  dsimp only [ops]
  after_results_simp
theorem arg9 : after (ops (F := Ideal)) V (Proc.devRef .tc main_arg9) = V (Proc.devRef .tc main_arg9) := by
  dsimp only [ops]
  after_results_simp
theorem arg10 : after (ops (F := Ideal)) V (Proc.devRef .tc main_arg10) = V (Proc.devRef .tc main_arg10) := by
  dsimp only [ops]
  after_results_simp
theorem arg11 : after (ops (F := Ideal)) V (Proc.devRef .tc main_arg11) = V (Proc.devRef .tc main_arg11) := by
  dsimp only [ops]
  after_results_simp

end Cert.ReferenceIdeal.StageB2

end
-- ==== Proof.RRun.lean ====
/-
  The idealized reference's run, read: the result array is the network netR of the argument arrays.

  @main is one straight line of host operations (a called function's operations standing at its call), run here as four
  stretches one after the other: each stretch's result is read from whatever contents it starts at, and a later stretch
  starts where the earlier one ends.  No stretch writes an argument.  Substituting stretch by stretch gives netR of the
  launch contents.
-/
import proofs.«155655_j678604832875_1_alg».proof.Proof.Gen.ReferenceIdeal
import proofs.«155655_j678604832875_1_alg».proof.Proof.Spec
import proofs.«155655_j678604832875_1_alg».proof.Proof.NetDefs
import proofs.«155655_j678604832875_1_alg».proof.Proof.LibHostLine
import proofs.«155655_j678604832875_1_alg».proof.Proof.RStageA1
import proofs.«155655_j678604832875_1_alg».proof.Proof.RStageA2
import proofs.«155655_j678604832875_1_alg».proof.Proof.RStageB1
import proofs.«155655_j678604832875_1_alg».proof.Proof.RStageB2
import Idealize.ShloMosaic.Lib.StableHlo.Run
import Idealize.ShloMosaic.Lib.Pipeline.Regions
import Idealize.ShloMosaic.PureOps.Ideal

noncomputable section

open Idealize.ShloMosaic Idealize.ShloMosaic.TcCoe Idealize.SL.Sem

namespace Cert.ReferenceIdeal.Run

open Cert.ReferenceIdeal Cert.ReferenceIdeal.Gen Idealize.ShloMosaic.StableHlo

section
variable {F : FTy → Type} [FloatOps F]

/-- @main's operations: the four stretches in order. -/
abbrev ops : List (HloOp τ sig (Elt F)) := StageA1.ops ++ (StageA2.ops ++ (StageB1.ops ++ StageB2.ops))

/-- @main is that straight line: the called functions unfolded at their calls and sequencing reassociated, both sides are one
    chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp StageA1.ops_sub op h
    rcases List.mem_append.mp h with h | h
    · exact List.forall_iff_forall_mem.mp StageA2.ops_sub op h
    rcases List.mem_append.mp h with h | h
    · exact List.forall_iff_forall_mem.mp StageB1.ops_sub op h
    · exact List.forall_iff_forall_mem.mp StageB2.ops_sub op h

/-- Every weakly fair execution of @main terminates with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
end

variable (V : Valuation τ sig (Elt Ideal))

/-- The result buffer after the four stretches, from any starting contents: the network of the arguments found there. -/
theorem out_eq : after (ops (F := Ideal)) V (Proc.devRef .tc main_v96) = Net.netR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold ops
  rw [LibHostLine.after_append, LibHostLine.after_append, LibHostLine.after_append]
  rw [StageB2.value, StageB1.value, StageB1.arg10, StageB1.arg11, StageA2.value,
    StageA2.arg1, StageA2.arg7, StageA2.arg8, StageA2.arg9, StageA2.arg10, StageA2.arg11,
    StageA1.value, StageA1.arg1, StageA1.arg5, StageA1.arg6, StageA1.arg7, StageA1.arg8, StageA1.arg9, StageA1.arg10, StageA1.arg11]
  rfl

theorem arg0 : after (ops (F := Ideal)) V (Proc.devRef .tc main_arg0) = V (Proc.devRef .tc main_arg0) := by
  unfold ops
  rw [LibHostLine.after_append, LibHostLine.after_append, LibHostLine.after_append, StageB2.arg0, StageB1.arg0, StageA2.arg0, StageA1.arg0]
theorem arg1 : after (ops (F := Ideal)) V (Proc.devRef .tc main_arg1) = V (Proc.devRef .tc main_arg1) := by
  unfold ops
  rw [LibHostLine.after_append, LibHostLine.after_append, LibHostLine.after_append, StageB2.arg1, StageB1.arg1, StageA2.arg1, StageA1.arg1]
theorem arg2 : after (ops (F := Ideal)) V (Proc.devRef .tc main_arg2) = V (Proc.devRef .tc main_arg2) := by
  unfold ops
  rw [LibHostLine.after_append, LibHostLine.after_append, LibHostLine.after_append, StageB2.arg2, StageB1.arg2, StageA2.arg2, StageA1.arg2]
theorem arg3 : after (ops (F := Ideal)) V (Proc.devRef .tc main_arg3) = V (Proc.devRef .tc main_arg3) := by
  unfold ops
  rw [LibHostLine.after_append, LibHostLine.after_append, LibHostLine.after_append, StageB2.arg3, StageB1.arg3, StageA2.arg3, StageA1.arg3]
theorem arg4 : after (ops (F := Ideal)) V (Proc.devRef .tc main_arg4) = V (Proc.devRef .tc main_arg4) := by
  unfold ops
  rw [LibHostLine.after_append, LibHostLine.after_append, LibHostLine.after_append, StageB2.arg4, StageB1.arg4, StageA2.arg4, StageA1.arg4]
theorem arg5 : after (ops (F := Ideal)) V (Proc.devRef .tc main_arg5) = V (Proc.devRef .tc main_arg5) := by
  unfold ops
  rw [LibHostLine.after_append, LibHostLine.after_append, LibHostLine.after_append, StageB2.arg5, StageB1.arg5, StageA2.arg5, StageA1.arg5]
theorem arg6 : after (ops (F := Ideal)) V (Proc.devRef .tc main_arg6) = V (Proc.devRef .tc main_arg6) := by
  unfold ops
  rw [LibHostLine.after_append, LibHostLine.after_append, LibHostLine.after_append, StageB2.arg6, StageB1.arg6, StageA2.arg6, StageA1.arg6]
theorem arg7 : after (ops (F := Ideal)) V (Proc.devRef .tc main_arg7) = V (Proc.devRef .tc main_arg7) := by
  unfold ops
  rw [LibHostLine.after_append, LibHostLine.after_append, LibHostLine.after_append, StageB2.arg7, StageB1.arg7, StageA2.arg7, StageA1.arg7]
theorem arg8 : after (ops (F := Ideal)) V (Proc.devRef .tc main_arg8) = V (Proc.devRef .tc main_arg8) := by
  unfold ops
  rw [LibHostLine.after_append, LibHostLine.after_append, LibHostLine.after_append, StageB2.arg8, StageB1.arg8, StageA2.arg8, StageA1.arg8]
theorem arg9 : after (ops (F := Ideal)) V (Proc.devRef .tc main_arg9) = V (Proc.devRef .tc main_arg9) := by
  unfold ops
  rw [LibHostLine.after_append, LibHostLine.after_append, LibHostLine.after_append, StageB2.arg9, StageB1.arg9, StageA2.arg9, StageA1.arg9]
theorem arg10 : after (ops (F := Ideal)) V (Proc.devRef .tc main_arg10) = V (Proc.devRef .tc main_arg10) := by
  unfold ops
  rw [LibHostLine.after_append, LibHostLine.after_append, LibHostLine.after_append, StageB2.arg10, StageB1.arg10, StageA2.arg10, StageA1.arg10]
theorem arg11 : after (ops (F := Ideal)) V (Proc.devRef .tc main_arg11) = V (Proc.devRef .tc main_arg11) := by
  unfold ops
  rw [LibHostLine.after_append, LibHostLine.after_append, LibHostLine.after_append, StageB2.arg11, StageB1.arg11, StageA2.arg11, StageA1.arg11]

/-- Every weakly fair execution of @main terminates, nothing faulting, with the result array at the network of the argument
    arrays and the argument arrays as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = Net.netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v96).trans (out_eq (launchContents m c)),
      (h c main_arg0).trans (arg0 (launchContents m c)),
      (h c main_arg1).trans (arg1 (launchContents m c)),
      (h c main_arg2).trans (arg2 (launchContents m c)),
      (h c main_arg3).trans (arg3 (launchContents m c)),
      (h c main_arg4).trans (arg4 (launchContents m c)),
      (h c main_arg5).trans (arg5 (launchContents m c)),
      (h c main_arg6).trans (arg6 (launchContents m c)),
      (h c main_arg7).trans (arg7 (launchContents m c)),
      (h c main_arg8).trans (arg8 (launchContents m c)),
      (h c main_arg9).trans (arg9 (launchContents m c)),
      (h c main_arg10).trans (arg10 (launchContents m c)),
      (h c main_arg11).trans (arg11 (launchContents m c))⟩)
    (run_all m ρ)

end Cert.ReferenceIdeal.Run

end
-- ==== Proof.lean ====
/-
  The certificate of a two-layer neighbourhood-mean network (mean over incoming edges, two matrices and a bias,
  normalisation over the 50000 nodes, max (., 0) after the first layer) computed by four row-blocked pallas calls among
  host gather / scatter lines, against the same network in whole-array host operations.

  On the extended reals the two programs compute ONE function of the arguments, for every input (Net.net_eq): the kernel
  multiplies the neighbourhood sum by 1 / max (count) 1 where the reference divides by max (count) 1; it adds the bias after
  both products where the reference adds it between them; and it multiplies by (variance + eps)^(-1/2) where the reference
  divides by sqrt (variance + eps), the variance being >= 0 as a sum of squares over 50000.  The matrix unit's products into
  zero accumulators are the textbook sums, and a change of float format is the identity.  The kernel's result array is
  read off its run call by call (KRun), the reference's off its straight line of host operations (RRun).  The idealization
  rewrote nothing, and the word-level kernel and both idealized programs run to the end with their arguments unchanged.
-/
import proofs.«155655_j678604832875_1_alg».proof.Defs
import proofs.«155655_j678604832875_1_alg».proof.Proof.Gen.Kernel
import proofs.«155655_j678604832875_1_alg».proof.Proof.Gen.Kernel.Skeleton
import proofs.«155655_j678604832875_1_alg».proof.Proof.Gen.Kernel.Launch
import proofs.«155655_j678604832875_1_alg».proof.Proof.Gen.Kernel.Points
import proofs.«155655_j678604832875_1_alg».proof.Proof.Gen.Kernel.Frame
import proofs.«155655_j678604832875_1_alg».proof.Proof.Gen.KernelIdeal
import proofs.«155655_j678604832875_1_alg».proof.Proof.Gen.KernelIdeal.Skeleton
import proofs.«155655_j678604832875_1_alg».proof.Proof.Gen.KernelIdeal.Launch
import proofs.«155655_j678604832875_1_alg».proof.Proof.Gen.KernelIdeal.Points
import proofs.«155655_j678604832875_1_alg».proof.Proof.Gen.KernelIdeal.Frame
import proofs.«155655_j678604832875_1_alg».proof.Proof.Gen.ReferenceIdeal
import proofs.«155655_j678604832875_1_alg».proof.Proof.Gen.Pre_finite_inputs
import proofs.«155655_j678604832875_1_alg».proof.Proof.Net
import proofs.«155655_j678604832875_1_alg».proof.Proof.KRun
import proofs.«155655_j678604832875_1_alg».proof.Proof.RRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Run.run m ρ)

/-- Both idealized programs end with the network of the (agreeing) arguments: netK on the kernel's side, netR on the
    reference's, one function. -/
theorem algebraic : Cert.algebraic_KernelIdeal_ReferenceIdeal := by
  intro m ρ m' ρ' _ hagree
  refine ⟨fun c => Cert.Net.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Run.run m ρ, ?_⟩
  refine (θ_run Cert.ReferenceIdeal.defs _ _).mono (fun _ h c => ⟨(h c).1.trans ?_, (h c).2⟩) (Cert.ReferenceIdeal.Run.run m' ρ')
  obtain ⟨e0, e1, e2, e3, e4, e5, e6, e7, e8, e9, e10, e11⟩ := hagree c
  rw [e0, e1, e2, e3, e4, e5, e6, e7, e8, e9, e10, e11]
  exact (Cert.Net.net_eq _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
